-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26x1 : Shape := ⟨3, ![16384, 26, 1]⟩
abbrev S16384x26 : Shape := ⟨2, ![16384, 26]⟩
abbrev S16384x128 : Shape := ⟨2, ![16384, 128]⟩
abbrev S16384x20 : Shape := ⟨2, ![16384, 20]⟩
abbrev S26x100000 : Shape := ⟨2, ![26, 100000]⟩
abbrev S26x100000x32 : Shape := ⟨3, ![26, 100000, 32]⟩
abbrev S50000x32 : Shape := ⟨2, ![50000, 32]⟩
abbrev S32x128 : Shape := ⟨2, ![32, 128]⟩
abbrev S32 : Shape := ⟨1, ![32]⟩
abbrev S896x512 : Shape := ⟨2, ![896, 512]⟩
abbrev S512 : Shape := ⟨1, ![512]⟩
abbrev S512x256 : Shape := ⟨2, ![512, 256]⟩
abbrev S256 : Shape := ⟨1, ![256]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x20 : S_.BroadcastsInDim S16384x20 (![] : Fin 0 → Fin S16384x20.rank)
  reducesTo_S16384x20_S_d0_1 : S16384x20.ReducesTo [0, 1] S_
  bcast_S_S26x100000 : S_.BroadcastsInDim S26x100000 (![] : Fin 0 → Fin S26x100000.rank)
  reducesTo_S26x100000_S_d0_1 : S26x100000.ReducesTo [0, 1] S_
  bcast_S_S26x100000x32 : S_.BroadcastsInDim S26x100000x32 (![] : Fin 0 → Fin S26x100000x32.rank)
  reducesTo_S26x100000x32_S_d0_1_2 : S26x100000x32.ReducesTo [0, 1, 2] S_
  bcast_S_S50000x32 : S_.BroadcastsInDim S50000x32 (![] : Fin 0 → Fin S50000x32.rank)
  reducesTo_S50000x32_S_d0_1 : S50000x32.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S896x512 : S_.BroadcastsInDim S896x512 (![] : Fin 0 → Fin S896x512.rank)
  reducesTo_S896x512_S_d0_1 : S896x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S256 .f32) (main_arg14 : FVec F S1 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S32 .f32) (main_arg10 : FVec F S896x512 .f32) (main_arg11 : FVec F S512 .f32) (main_arg12 : FVec F S512x256 .f32) (main_arg13 : FVec F S256 .f32) (main_arg14 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S896x512 .f32 := Host.absf main_arg10
  let main_cst_14 : FVec F S_ .f32 := constant S_ .f32 0x7F800000#32
  let main_v40 : FVec F S896x512 .f32 := broadcastInDim S896x512 ![] bcast_S_S896x512 main_cst_14
  let main_v41 : IVec S896x512 1 := cmpf .olt main_v39 main_v40
  let main_c_15 : IVec S_ 1 := constantI S_ 1 1#1
  let main_v42 : IVec S_ 1 := (fun x v => Host.reduce IntOp.andi x v reducesTo_S896x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg12
  let main_cst_18 : FVec F S_ .f32 := constant S_ .f32 0x7F800000#32
  let main_v50 : FVec F S512x256 .f32 := broadcastInDim S512x256 ![] bcast_S_S512x256 main_cst_18
  fn_part3 (F := F) main_arg13 main_arg14 main_v48 main_v49 main_v50

def fn_part1 {F : FTy → Type} [FloatOps F] (main_arg6 : FVec F S26x100000x32 .f32) (main_arg7 : FVec F S50000x32 .f32) (main_arg8 : FVec F S32x128 .f32) (main_arg9 : FVec F S32 .f32) (main_arg10 : FVec F S896x512 .f32) (main_arg11 : FVec F S512 .f32) (main_arg12 : FVec F S512x256 .f32) (main_arg13 : FVec F S256 .f32) (main_arg14 : FVec F S1 .f32) (main_v13 : IVec S_ 1) (main_v16 : IVec S26x100000 1) : IVec S_ 1 :=
  let main_c_5 : IVec S_ 1 := constantI S_ 1 1#1
  let main_v17 : IVec S_ 1 := (fun x v => Host.reduce IntOp.andi x v reducesTo_S26x100000_S_d0_1 h_S_) main_v16 main_c_5
  let main_v18 : IVec S_ 1 := andi main_v13 main_v17
  let main_v19 : FVec F S26x100000x32 .f32 := Host.absf main_arg6
  let main_cst_6 : FVec F S_ .f32 := constant S_ .f32 0x7F800000#32
  let main_v20 : FVec F S26x100000x32 .f32 := broadcastInDim S26x100000x32 ![] bcast_S_S26x100000x32 main_cst_6
  let main_v21 : IVec S26x100000x32 1 := cmpf .olt main_v19 main_v20
  let main_c_7 : IVec S_ 1 := constantI S_ 1 1#1
  let main_v22 : IVec S_ 1 := (fun x v => Host.reduce IntOp.andi x v reducesTo_S26x100000x32_S_d0_1_2 h_S_) main_v21 main_c_7
  let main_v23 : IVec S_ 1 := andi main_v18 main_v22
  let main_v24 : FVec F S50000x32 .f32 := Host.absf main_arg7
  let main_cst_8 : FVec F S_ .f32 := constant S_ .f32 0x7F800000#32
  let main_v25 : FVec F S50000x32 .f32 := broadcastInDim S50000x32 ![] bcast_S_S50000x32 main_cst_8
  let main_v26 : IVec S50000x32 1 := cmpf .olt main_v24 main_v25
  let main_c_9 : IVec S_ 1 := constantI S_ 1 1#1
  let main_v27 : IVec S_ 1 := (fun x v => Host.reduce IntOp.andi x v reducesTo_S50000x32_S_d0_1 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S16384x26x1 32) (main_arg1 : FVec F S16384x26 .f32) (main_arg2 : FVec F S16384x128 .f32) (main_arg3 : IVec S16384x20 32) (main_arg4 : FVec F S16384x20 .f32) (main_arg5 : FVec F S26x100000 .f32) (main_arg6 : FVec F S26x100000x32 .f32) (main_arg7 : FVec F S50000x32 .f32) (main_arg8 : FVec F S32x128 .f32) (main_arg9 : FVec F S32 .f32) (main_arg10 : FVec F S896x512 .f32) (main_arg11 : FVec F S512 .f32) (main_arg12 : FVec F S512x256 .f32) (main_arg13 : FVec F S256 .f32) (main_arg14 : FVec F S1 .f32) : IVec S_ 1 :=
  let main_v0 : FVec F S16384x26 .f32 := Host.absf main_arg1
  let main_cst : FVec F S_ .f32 := constant S_ .f32 0x7F800000#32
  let main_v1 : FVec F S16384x26 .f32 := broadcastInDim S16384x26 ![] bcast_S_S16384x26 main_cst
  let main_v2 : IVec S16384x26 1 := cmpf .olt main_v0 main_v1
  let main_c : IVec S_ 1 := constantI S_ 1 1#1
  let main_v3 : IVec S_ 1 := (fun x v => Host.reduce IntOp.andi x v reducesTo_S16384x26_S_d0_1 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x20 .f32 := Host.absf main_arg4
  let main_cst_2 : FVec F S_ .f32 := constant S_ .f32 0x7F800000#32
  let main_v10 : FVec F S16384x20 .f32 := broadcastInDim S16384x20 ![] bcast_S_S16384x20 main_cst_2
  let main_v11 : IVec S16384x20 1 := cmpf .olt main_v9 main_v10
  let main_c_3 : IVec S_ 1 := constantI S_ 1 1#1
  let main_v12 : IVec S_ 1 := (fun x v => Host.reduce IntOp.andi x v reducesTo_S16384x20_S_d0_1 h_S_) main_v11 main_c_3
  let main_v13 : IVec S_ 1 := andi main_v8 main_v12
  let main_v14 : FVec F S26x100000 .f32 := Host.absf main_arg5
  let main_cst_4 : FVec F S_ .f32 := constant S_ .f32 0x7F800000#32
  let main_v15 : FVec F S26x100000 .f32 := broadcastInDim S26x100000 ![] bcast_S_S26x100000 main_cst_4
  let main_v16 : IVec S26x100000 1 := cmpf .olt main_v14 main_v15
  fn_part1 (F := F) main_arg6 main_arg7 main_arg8 main_arg9 main_arg10 main_arg11 main_arg12 main_arg13 main_arg14 main_v13 main_v16
-- ==== Kernel.lean ====
abbrev S16384x26x1 : Shape := ⟨3, ![16384, 26, 1]⟩
abbrev S16384x26 : Shape := ⟨2, ![16384, 26]⟩
abbrev S16384x128 : Shape := ⟨2, ![16384, 128]⟩
abbrev S16384x20 : Shape := ⟨2, ![16384, 20]⟩
abbrev S26x100000 : Shape := ⟨2, ![26, 100000]⟩
abbrev S26x100000x32 : Shape := ⟨3, ![26, 100000, 32]⟩
abbrev S50000x32 : Shape := ⟨2, ![50000, 32]⟩
abbrev S32x128 : Shape := ⟨2, ![32, 128]⟩
abbrev S32 : Shape := ⟨1, ![32]⟩
abbrev S896x512 : Shape := ⟨2, ![896, 512]⟩
abbrev S512 : Shape := ⟨1, ![512]⟩
abbrev S512x256 : Shape := ⟨2, ![512, 256]⟩
abbrev S256 : Shape := ⟨1, ![256]⟩
abbrev S1 : Shape := ⟨1, ![1]⟩
abbrev S26 : Shape := ⟨1, ![26]⟩
abbrev S1x26 : Shape := ⟨2, ![1, 26]⟩
abbrev S_ : Shape := ⟨0, ![]⟩
abbrev S16384x26x2 : Shape := ⟨3, ![16384, 26, 2]⟩
abbrev S16384x26x32 : Shape := ⟨3, ![16384, 26, 32]⟩
abbrev S16384x20x1 : Shape := ⟨3, ![16384, 20, 1]⟩
abbrev S16384x20x32 : Shape := ⟨3, ![16384, 20, 32]⟩
abbrev S16384 : Shape := ⟨1, ![16384]⟩
abbrev S512x26 : Shape := ⟨2, ![512, 26]⟩
abbrev S512x26x32 : Shape := ⟨3, ![512, 26, 32]⟩
abbrev S512x20x32 : Shape := ⟨3, ![512, 20, 32]⟩
abbrev S512x128 : Shape := ⟨2, ![512, 128]⟩
abbrev S512x26x1 : Shape := ⟨3, ![512, 26, 1]⟩
abbrev S512x32 : Shape := ⟨2, ![512, 32]⟩
abbrev S128x32 : Shape := ⟨2, ![128, 32]⟩
abbrev S1x32 : Shape := ⟨2, ![1, 32]⟩
abbrev S512x832 : Shape := ⟨2, ![512, 832]⟩
abbrev S832x512 : Shape := ⟨2, ![832, 512]⟩
abbrev S32x512 : Shape := ⟨2, ![32, 512]⟩
abbrev S512x512 : Shape := ⟨2, ![512, 512]⟩
abbrev S1x512 : Shape := ⟨2, ![1, 512]⟩
abbrev S1x256 : Shape := ⟨2, ![1, 256]⟩

abbrev nBuf : Space → Nat
  | .hbm => 74
  | .vmem => 19
  | .smem => 0
  | _ => 0

abbrev bufTy : (tb : Table) → Fin (tcTables nBuf tb) → BufTy
  | .hbm, ⟨0, _⟩ => ⟨S16384x26x1, .i32⟩
  | .hbm, ⟨1, _⟩ => ⟨S16384x26, .f32⟩
  | .hbm, ⟨2, _⟩ => ⟨S16384x128, .f32⟩
  | .hbm, ⟨3, _⟩ => ⟨S16384x20, .i32⟩
  | .hbm, ⟨4, _⟩ => ⟨S16384x20, .f32⟩
  | .hbm, ⟨5, _⟩ => ⟨S26x100000, .f32⟩
  | .hbm, ⟨6, _⟩ => ⟨S26x100000x32, .f32⟩
  | .hbm, ⟨7, _⟩ => ⟨S50000x32, .f32⟩
  | .hbm, ⟨8, _⟩ => ⟨S32x128, .f32⟩
  | .hbm, ⟨9, _⟩ => ⟨S32, .f32⟩
  | .hbm, ⟨10, _⟩ => ⟨S896x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S1, .f32⟩
  | .hbm, ⟨15, _⟩ => ⟨S16384x26, .i32⟩
  | .hbm, ⟨16, _⟩ => ⟨S26, .i32⟩
  | .hbm, ⟨17, _⟩ => ⟨S1x26, .i32⟩
  | .hbm, ⟨18, _⟩ => ⟨S_, .i32⟩
  | .hbm, ⟨19, _⟩ => ⟨S1x26, .i32⟩
  | .hbm, ⟨20, _⟩ => ⟨S1x26, .i1⟩
  | .hbm, ⟨21, _⟩ => ⟨S_, .i32⟩
  | .hbm, ⟨22, _⟩ => ⟨S1x26, .i32⟩
  | .hbm, ⟨23, _⟩ => ⟨S1x26, .i32⟩
  | .hbm, ⟨24, _⟩ => ⟨S1x26, .i32⟩
  | .hbm, ⟨25, _⟩ => ⟨S_, .i32⟩
  | .hbm, ⟨26, _⟩ => ⟨S16384x26, .i32⟩
  | .hbm, ⟨27, _⟩ => ⟨S16384x26, .i1⟩
  | .hbm, ⟨28, _⟩ => ⟨S_, .i32⟩
  | .hbm, ⟨29, _⟩ => ⟨S16384x26, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x2, .i32⟩
  | .hbm, ⟨36, _⟩ => ⟨S16384x26, .f32⟩
  | .hbm, ⟨37, _⟩ => ⟨S_, .i32⟩
  | .hbm, ⟨38, _⟩ => ⟨S1x26, .i32⟩
  | .hbm, ⟨39, _⟩ => ⟨S1x26, .i1⟩
  | .hbm, ⟨40, _⟩ => ⟨S_, .i32⟩
  | .hbm, ⟨41, _⟩ => ⟨S1x26, .i32⟩
  | .hbm, ⟨42, _⟩ => ⟨S1x26, .i32⟩
  | .hbm, ⟨43, _⟩ => ⟨S1x26, .i32⟩
  | .hbm, ⟨44, _⟩ => ⟨S_, .i32⟩
  | .hbm, ⟨45, _⟩ => ⟨S16384x26, .i32⟩
  | .hbm, ⟨46, _⟩ => ⟨S16384x26, .i1⟩
  | .hbm, ⟨47, _⟩ => ⟨S_, .i32⟩
  | .hbm, ⟨48, _⟩ => ⟨S16384x26, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26x1, .i32⟩
  | .hbm, ⟨53, _⟩ => ⟨S16384x26x1, .i32⟩
  | .hbm, ⟨54, _⟩ => ⟨S16384x26x2, .i32⟩
  | .hbm, ⟨55, _⟩ => ⟨S16384x26x32, .f32⟩
  | .hbm, ⟨56, _⟩ => ⟨S16384x26x32, .bf16⟩
  | .hbm, ⟨57, _⟩ => ⟨S_, .i32⟩
  | .hbm, ⟨58, _⟩ => ⟨S16384x20, .i32⟩
  | .hbm, ⟨59, _⟩ => ⟨S16384x20, .i1⟩
  | .hbm, ⟨60, _⟩ => ⟨S_, .i32⟩
  | .hbm, ⟨61, _⟩ => ⟨S16384x20, .i32⟩
  | .hbm, ⟨62, _⟩ => ⟨S16384x20, .i32⟩
  | .hbm, ⟨63, _⟩ => ⟨S16384x20, .i32⟩
  | .hbm, ⟨64, _⟩ => ⟨S16384x20x1, .i32⟩
  | .hbm, ⟨65, _⟩ => ⟨S16384x20x32, .f32⟩
  | .hbm, ⟨66, _⟩ => ⟨S16384x20x1, .f32⟩
  | .hbm, ⟨67, _⟩ => ⟨S16384x20x32, .f32⟩
  | .hbm, ⟨68, _⟩ => ⟨S16384x20x32, .f32⟩
  | .hbm, ⟨69, _⟩ => ⟨S16384x20x32, .bf16⟩
  | .hbm, ⟨70, _⟩ => ⟨S32x128, .bf16⟩
  | .hbm, ⟨71, _⟩ => ⟨S896x512, .bf16⟩
  | .hbm, ⟨72, _⟩ => ⟨S512x256, .bf16⟩
  | .hbm, ⟨73, _⟩ => ⟨S16384, .f32⟩
  | .local _ .vmem, ⟨0, _⟩ => ⟨S512x26, .f32⟩
  | .local _ .vmem, ⟨1, _⟩ => ⟨S512x26, .f32⟩
  | .local _ .vmem, ⟨2, _⟩ => ⟨S512x26, .f32⟩
  | .local _ .vmem, ⟨3, _⟩ => ⟨S512x26, .f32⟩
  | .local _ .vmem, ⟨4, _⟩ => ⟨S512x26x32, .bf16⟩
  | .local _ .vmem, ⟨5, _⟩ => ⟨S512x26x32, .bf16⟩
  | .local _ .vmem, ⟨6, _⟩ => ⟨S512x20x32, .bf16⟩
  | .local _ .vmem, ⟨7, _⟩ => ⟨S512x20x32, .bf16⟩
  | .local _ .vmem, ⟨8, _⟩ => ⟨S512x128, .f32⟩
  | .local _ .vmem, ⟨9, _⟩ => ⟨S512x128, .f32⟩
  | .local _ .vmem, ⟨10, _⟩ => ⟨S32x128, .bf16⟩
  | .local _ .vmem, ⟨11, _⟩ => ⟨S32, .f32⟩
  | .local _ .vmem, ⟨12, _⟩ => ⟨S896x512, .bf16⟩
  | .local _ .vmem, ⟨13, _⟩ => ⟨S512, .f32⟩
  | .local _ .vmem, ⟨14, _⟩ => ⟨S512x256, .bf16⟩
  | .local _ .vmem, ⟨15, _⟩ => ⟨S256, .f32⟩
  | .local _ .vmem, ⟨16, _⟩ => ⟨S1, .f32⟩
  | .local _ .vmem, ⟨17, _⟩ => ⟨S512, .f32⟩
  | .local _ .vmem, ⟨18, _⟩ => ⟨S512, .f32⟩
  | _, _ => ⟨S16384x26x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x26x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x20x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S16384x26x1_S16384x26 : S16384x26x1.ShapeCasts S16384x26
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bitsLt_bf16_f32 : FTy.bits .bf16 < FTy.bits .f32
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S16384x20x1_S16384x20x32_0_1_2 : S16384x20x1.BroadcastsInDim S16384x20x32 (![0, 1, 2] : Fin 3 → Fin S16384x20x32.rank)
  inb_S512x26_S512x26_0_0 : ∀ a, (![0, 0] : Fin 2 → Nat) a + S512x26.size a ≤ S512x26.size a
  h_S512x26 : 0 < S512x26.numel
  shapeCasts_S512x26_S512x26 : S512x26.ShapeCasts S512x26
  inb_S512x26x32_S512x26x32_0_0_0 : ∀ a, (![0, 0, 0] : Fin 3 → Nat) a + S512x26x32.size a ≤ S512x26x32.size a
  h_S512x26x32 : 0 < S512x26x32.numel
  shapeCasts_S512x26x32_S512x26x32 : S512x26x32.ShapeCasts S512x26x32
  inb_S512x20x32_S512x20x32_0_0_0 : ∀ a, (![0, 0, 0] : Fin 3 → Nat) a + S512x20x32.size a ≤ S512x20x32.size a
  h_S512x20x32 : 0 < S512x20x32.numel
  shapeCasts_S512x20x32_S512x20x32 : S512x20x32.ShapeCasts S512x20x32
  reduces_S512x26_S512 : S512x26.Reduces [1] S512
  shapeCasts_S512x26_S512x26x1 : S512x26.ShapeCasts S512x26x1
  broadcasts_S512x26x1_S512x26x32 : S512x26x1.Broadcasts S512x26x32
  reduces_S512x26x32_S512x32 : S512x26x32.Reduces [1] S512x32
  reduces_S512x32_S512 : S512x32.Reduces [1] S512
  reduces_S512x20x32_S512x32 : S512x20x32.Reduces [1] S512x32
  inb_S512x128_S512x128_0_0 : ∀ a, (![0, 0] : Fin 2 → Nat) a + S512x128.size a ≤ S512x128.size a
  h_S512x128 : 0 < S512x128.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  shapeCasts_S512x26x32_S512x832 : S512x26x32.ShapeCasts S512x832
  inb_S896x512_S832x512_0_0 : ∀ a, (![0, 0] : Fin 2 → Nat) a + S832x512.size a ≤ S896x512.size a
  h_S832x512 : 0 < S832x512.numel
  shapeCasts_S832x512_S832x512 : S832x512.ShapeCasts S832x512
  inb_S896x512_S32x512_832_0 : ∀ a, (![832, 0] : Fin 2 → Nat) a + S32x512.size a ≤ S896x512.size a
  h_S32x512 : 0 < S32x512.numel
  shapeCasts_S32x512_S32x512 : S32x512.ShapeCasts S32x512
  inb_S896x512_S32x512_864_0 : ∀ a, (![864, 0] : Fin 2 → Nat) a + S32x512.size a ≤ S896x512.size a
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  inb_S1_S1_0 : ∀ a, (![0] : Fin 1 → Nat) a + S1.size a ≤ S1.size a
  h_S1 : 0 < S1.numel
  inpos_S1_p0 : ∀ a, (![0] : Fin 1 → Nat) a < S1.size a
  gather_S26x100000_S16384x26x2_S16384x26_n_01_n_n_01_2_11_wf : GatherDims.WF S26x100000 S16384x26x2 S16384x26 [] [0, 1] [] [0, 1] [] 2 ![1, 1]
  gather_S26x100000x32_S16384x26x2_S16384x26x32_2_01_n_n_01_2_1132_wf : GatherDims.WF S26x100000x32 S16384x26x2 S16384x26x32 [2] [0, 1] [] [0, 1] [] 2 ![1, 1, 32]
  gather_S50000x32_S16384x20x1_S16384x20x32_2_0_n_n_0_2_132_wf : GatherDims.WF S50000x32 S16384x20x1 S16384x20x32 [2] [0] [] [0] [] 2 ![1, 32]
  dot_S512x128_S128x32_S512x32_1_0_0_1_n_n_wf : DotDims.WF S512x128 S128x32 S512x32 [1] [0] [0] [1] [] []
  dot_S512x832_S832x512_S512x512_1_0_0_1_n_n_wf : DotDims.WF S512x832 S832x512 S512x512 [1] [0] [0] [1] [] []
  dot_S512x32_S32x512_S512x512_1_0_0_1_n_n_wf : DotDims.WF S512x32 S32x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x26.size a ≤ S16384x26.size a
  hwx0_0 : ∀ i : grid0.Coords, EltTy.bits .f32 = 32 ∨ (Rect.block (s := S16384x26) S512x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26.size a ≤ S16384x26.size a
  hwx0_1 : ∀ i : grid0.Coords, EltTy.bits .f32 = 32 ∨ (Rect.block (s := S16384x26) S512x26.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x26x32.size a ≤ S16384x26x32.size a
  hwx0_2 : ∀ i : grid0.Coords, EltTy.bits .bf16 = 32 ∨ (Rect.block (s := S16384x26x32) S512x26x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x20x32.size a ≤ S16384x20x32.size a
  hwx0_3 : ∀ i : grid0.Coords, EltTy.bits .bf16 = 32 ∨ (Rect.block (s := S16384x20x32) S512x20x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x512.size a ≤ S896x512.size a
  hwx0_7 : ∀ i : grid0.Coords, EltTy.bits .bf16 = 32 ∨ (Rect.block (s := S896x512) S896x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .bf16 = 32 ∨ (Rect.block (s := S512x256) S512x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S16384.size a
  hwx0_12 : ∀ i : grid0.Coords, EltTy.bits .f32 = 32 ∨ (Rect.block (s := S16384) S512.size (cc0_transform_12 i) (hinb0_12 i)).WholeWords (EltTy.packing .f32)

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S50000x32_S16384x20x1_S16384x20x32_2_0_n_n_0_2_132 : GatherDims S50000x32 S16384x20x1 S16384x20x32 where
  offsetDims := [2]
  collapsedSliceDims := [0]
  operandBatchingDims := []
  startIndicesBatchingDims := []
  startIndexMap := [0]
  indexVectorDim := 2
  sliceSizes := ![1, 32]
  wf := gather_S50000x32_S16384x20x1_S16384x20x32_2_0_n_n_0_2_132_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x832_S832x512_S512x512_1_0_0_1_n_n : DotDims S512x832 S832x512 S512x512 where
  lhsContracting := [1]
  rhsContracting := [0]
  lhsNonContracting := [0]
  rhsNonContracting := [1]
  lhsBatch := []
  rhsBatch := []
  wf := dot_S512x832_S832x512_S512x512_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S512x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x26x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S512x20x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S896x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x26x1 : Shape := ⟨3, ![16384, 26, 1]⟩
abbrev S16384x26 : Shape := ⟨2, ![16384, 26]⟩
abbrev S16384x128 : Shape := ⟨2, ![16384, 128]⟩
abbrev S16384x20 : Shape := ⟨2, ![16384, 20]⟩
abbrev S26x100000 : Shape := ⟨2, ![26, 100000]⟩
abbrev S26x100000x32 : Shape := ⟨3, ![26, 100000, 32]⟩
abbrev S50000x32 : Shape := ⟨2, ![50000, 32]⟩
abbrev S32x128 : Shape := ⟨2, ![32, 128]⟩
abbrev S32 : Shape := ⟨1, ![32]⟩
abbrev S896x512 : Shape := ⟨2, ![896, 512]⟩
abbrev S512 : Shape := ⟨1, ![512]⟩
abbrev S512x256 : Shape := ⟨2, ![512, 256]⟩
abbrev S256 : Shape := ⟨1, ![256]⟩
abbrev S1 : Shape := ⟨1, ![1]⟩
abbrev S26 : Shape := ⟨1, ![26]⟩
abbrev S1x26 : Shape := ⟨2, ![1, 26]⟩
abbrev S_ : Shape := ⟨0, ![]⟩
abbrev S16384x26x2 : Shape := ⟨3, ![16384, 26, 2]⟩
abbrev S16384x26x32 : Shape := ⟨3, ![16384, 26, 32]⟩
abbrev S16384x32 : Shape := ⟨2, ![16384, 32]⟩
abbrev S16384x20x1 : Shape := ⟨3, ![16384, 20, 1]⟩
abbrev S16384x20x32 : Shape := ⟨3, ![16384, 20, 32]⟩
abbrev S128x32 : Shape := ⟨2, ![128, 32]⟩
abbrev S1x32 : Shape := ⟨2, ![1, 32]⟩
abbrev S16384x832 : Shape := ⟨2, ![16384, 832]⟩
abbrev S16384x896 : Shape := ⟨2, ![16384, 896]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384 : Shape := ⟨1, ![16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x26x1, .i32⟩
  | .hbm, ⟨1, _⟩ => ⟨S16384x26, .f32⟩
  | .hbm, ⟨2, _⟩ => ⟨S16384x128, .f32⟩
  | .hbm, ⟨3, _⟩ => ⟨S16384x20, .i32⟩
  | .hbm, ⟨4, _⟩ => ⟨S16384x20, .f32⟩
  | .hbm, ⟨5, _⟩ => ⟨S26x100000, .f32⟩
  | .hbm, ⟨6, _⟩ => ⟨S26x100000x32, .f32⟩
  | .hbm, ⟨7, _⟩ => ⟨S50000x32, .f32⟩
  | .hbm, ⟨8, _⟩ => ⟨S32x128, .f32⟩
  | .hbm, ⟨9, _⟩ => ⟨S32, .f32⟩
  | .hbm, ⟨10, _⟩ => ⟨S896x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S1, .f32⟩
  | .hbm, ⟨15, _⟩ => ⟨S16384x26, .i32⟩
  | .hbm, ⟨16, _⟩ => ⟨S26, .i32⟩
  | .hbm, ⟨17, _⟩ => ⟨S1x26, .i32⟩
  | .hbm, ⟨18, _⟩ => ⟨S_, .i32⟩
  | .hbm, ⟨19, _⟩ => ⟨S1x26, .i32⟩
  | .hbm, ⟨20, _⟩ => ⟨S1x26, .i1⟩
  | .hbm, ⟨21, _⟩ => ⟨S_, .i32⟩
  | .hbm, ⟨22, _⟩ => ⟨S1x26, .i32⟩
  | .hbm, ⟨23, _⟩ => ⟨S1x26, .i32⟩
  | .hbm, ⟨24, _⟩ => ⟨S1x26, .i32⟩
  | .hbm, ⟨25, _⟩ => ⟨S_, .i32⟩
  | .hbm, ⟨26, _⟩ => ⟨S16384x26, .i32⟩
  | .hbm, ⟨27, _⟩ => ⟨S16384x26, .i1⟩
  | .hbm, ⟨28, _⟩ => ⟨S_, .i32⟩
  | .hbm, ⟨29, _⟩ => ⟨S16384x26, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x2, .i32⟩
  | .hbm, ⟨36, _⟩ => ⟨S16384x26, .f32⟩
  | .hbm, ⟨37, _⟩ => ⟨S16384x26, .f32⟩
  | .hbm, ⟨38, _⟩ => ⟨S_, .i32⟩
  | .hbm, ⟨39, _⟩ => ⟨S1x26, .i32⟩
  | .hbm, ⟨40, _⟩ => ⟨S1x26, .i1⟩
  | .hbm, ⟨41, _⟩ => ⟨S_, .i32⟩
  | .hbm, ⟨42, _⟩ => ⟨S1x26, .i32⟩
  | .hbm, ⟨43, _⟩ => ⟨S1x26, .i32⟩
  | .hbm, ⟨44, _⟩ => ⟨S1x26, .i32⟩
  | .hbm, ⟨45, _⟩ => ⟨S_, .i32⟩
  | .hbm, ⟨46, _⟩ => ⟨S16384x26, .i32⟩
  | .hbm, ⟨47, _⟩ => ⟨S16384x26, .i1⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26, .i32⟩
  | .hbm, ⟨53, _⟩ => ⟨S16384x26x1, .i32⟩
  | .hbm, ⟨54, _⟩ => ⟨S16384x26x1, .i32⟩
  | .hbm, ⟨55, _⟩ => ⟨S16384x26x2, .i32⟩
  | .hbm, ⟨56, _⟩ => ⟨S16384x26x32, .f32⟩
  | .hbm, ⟨57, _⟩ => ⟨S16384x26x1, .f32⟩
  | .hbm, ⟨58, _⟩ => ⟨S16384x26x32, .f32⟩
  | .hbm, ⟨59, _⟩ => ⟨S16384x26x32, .f32⟩
  | .hbm, ⟨60, _⟩ => ⟨S_, .f32⟩
  | .hbm, ⟨61, _⟩ => ⟨S16384x32, .f32⟩
  | .hbm, ⟨62, _⟩ => ⟨S16384x32, .f32⟩
  | .hbm, ⟨63, _⟩ => ⟨S16384x26x32, .f32⟩
  | .hbm, ⟨64, _⟩ => ⟨S_, .f32⟩
  | .hbm, ⟨65, _⟩ => ⟨S16384x32, .f32⟩
  | .hbm, ⟨66, _⟩ => ⟨S16384x32, .f32⟩
  | .hbm, ⟨67, _⟩ => ⟨S_, .f32⟩
  | .hbm, ⟨68, _⟩ => ⟨S16384x32, .f32⟩
  | .hbm, ⟨69, _⟩ => ⟨S16384x32, .f32⟩
  | .hbm, ⟨70, _⟩ => ⟨S_, .i32⟩
  | .hbm, ⟨71, _⟩ => ⟨S16384x20, .i32⟩
  | .hbm, ⟨72, _⟩ => ⟨S16384x20, .i1⟩
  | .hbm, ⟨73, _⟩ => ⟨S_, .i32⟩
  | .hbm, ⟨74, _⟩ => ⟨S16384x20, .i32⟩
  | .hbm, ⟨75, _⟩ => ⟨S16384x20, .i32⟩
  | .hbm, ⟨76, _⟩ => ⟨S16384x20, .i32⟩
  | .hbm, ⟨77, _⟩ => ⟨S16384x20x1, .i32⟩
  | .hbm, ⟨78, _⟩ => ⟨S16384x20x32, .f32⟩
  | .hbm, ⟨79, _⟩ => ⟨S16384x20x1, .f32⟩
  | .hbm, ⟨80, _⟩ => ⟨S16384x20x32, .f32⟩
  | .hbm, ⟨81, _⟩ => ⟨S16384x20x32, .f32⟩
  | .hbm, ⟨82, _⟩ => ⟨S_, .f32⟩
  | .hbm, ⟨83, _⟩ => ⟨S16384x32, .f32⟩
  | .hbm, ⟨84, _⟩ => ⟨S128x32, .f32⟩
  | .hbm, ⟨85, _⟩ => ⟨S16384x32, .f32⟩
  | .hbm, ⟨86, _⟩ => ⟨S1x32, .f32⟩
  | .hbm, ⟨87, _⟩ => ⟨S16384x32, .f32⟩
  | .hbm, ⟨88, _⟩ => ⟨S16384x32, .f32⟩
  | .hbm, ⟨89, _⟩ => ⟨S16384x832, .f32⟩
  | .hbm, ⟨90, _⟩ => ⟨S16384x896, .f32⟩
  | .hbm, ⟨91, _⟩ => ⟨S16384x512, .f32⟩
  | .hbm, ⟨92, _⟩ => ⟨S1x512, .f32⟩
  | .hbm, ⟨93, _⟩ => ⟨S16384x512, .f32⟩
  | .hbm, ⟨94, _⟩ => ⟨S16384x512, .f32⟩
  | .hbm, ⟨95, _⟩ => ⟨S_, .f32⟩
  | .hbm, ⟨96, _⟩ => ⟨S16384x512, .f32⟩
  | .hbm, ⟨97, _⟩ => ⟨S16384x512, .f32⟩
  | .hbm, ⟨98, _⟩ => ⟨S16384x256, .f32⟩
  | .hbm, ⟨99, _⟩ => ⟨S1x256, .f32⟩
  | .hbm, ⟨100, _⟩ => ⟨S16384x256, .f32⟩
  | .hbm, ⟨101, _⟩ => ⟨S16384x256, .f32⟩
  | .hbm, ⟨102, _⟩ => ⟨S_, .f32⟩
  | .hbm, ⟨103, _⟩ => ⟨S16384x256, .f32⟩
  | .hbm, ⟨104, _⟩ => ⟨S16384x256, .f32⟩
  | .hbm, ⟨105, _⟩ => ⟨S_, .f32⟩
  | .hbm, ⟨106, _⟩ => ⟨S16384, .f32⟩
  | .hbm, ⟨107, _⟩ => ⟨S_, .f32⟩
  | .hbm, ⟨108, _⟩ => ⟨S16384, .f32⟩
  | .hbm, ⟨109, _⟩ => ⟨S16384, .f32⟩
  | .hbm, ⟨110, _⟩ => ⟨S_, .f32⟩
  | .hbm, ⟨111, _⟩ => ⟨S16384, .f32⟩
  | .hbm, ⟨112, _⟩ => ⟨S16384, .f32⟩
  | .hbm, ⟨113, _⟩ => ⟨S_, .f32⟩
  | .hbm, ⟨114, _⟩ => ⟨S16384, .f32⟩
  | .hbm, ⟨115, _⟩ => ⟨S16384, .f32⟩
  | _, _ => ⟨S16384x26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call0_cst : Ref sig .tc := ⟨.hbm, 95, rfl⟩
abbrev main_call0_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call1_cst : Ref sig .tc := ⟨.hbm, 102, rfl⟩
abbrev main_call1_v0 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  shapeCasts_S16384x26x1_S16384x26 : S16384x26x1.ShapeCasts S16384x26
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S16384x26x1_S16384x26x32_0_1_2 : S16384x26x1.BroadcastsInDim S16384x26x32 (![0, 1, 2] : Fin 3 → Fin S16384x26x32.rank)
  reducesTo_S16384x26x32_S16384x32_d1 : S16384x26x32.ReducesTo [1] S16384x32
  h_S_ : 0 < S_.numel
  bcast_S_S16384x32 : S_.BroadcastsInDim S16384x32 (![] : Fin 0 → Fin S16384x32.rank)
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S16384x20x1_S16384x20x32_0_1_2 : S16384x20x1.BroadcastsInDim S16384x20x32 (![0, 1, 2] : Fin 3 → Fin S16384x20x32.rank)
  reducesTo_S16384x20x32_S16384x32_d1 : S16384x20x32.ReducesTo [1] S16384x32
  transposes_S32x128_S128x32_1_0 : S32x128.Transposes [1, 0] S128x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S16384x26x32_S16384x832 : S16384x26x32.ShapeCasts S16384x832
  concatenates_S16384x832_S16384x32_S16384x32_S16384x896_d1 : Shape.Concatenates [S16384x832, S16384x32, S16384x32] S16384x896 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  reducesTo_S16384x26_S16384_d1 : S16384x26.ReducesTo [1] S16384
  reducesTo_S16384x32_S16384_d1 : S16384x32.ReducesTo [1] S16384
  reducesTo_S16384x256_S16384_d1 : S16384x256.ReducesTo [1] S16384
  shapeCasts_S1_S_ : S1.ShapeCasts S_
  bcast_S_S16384 : S_.BroadcastsInDim S16384 (![] : Fin 0 → Fin S16384.rank)
  gather_S26x100000_S16384x26x2_S16384x26_n_01_n_n_01_2_11_wf : GatherDims.WF S26x100000 S16384x26x2 S16384x26 [] [0, 1] [] [0, 1] [] 2 ![1, 1]
  gather_S26x100000x32_S16384x26x2_S16384x26x32_2_01_n_n_01_2_1132_wf : GatherDims.WF S26x100000x32 S16384x26x2 S16384x26x32 [2] [0, 1] [] [0, 1] [] 2 ![1, 1, 32]
  gather_S50000x32_S16384x20x1_S16384x20x32_2_0_n_n_0_2_132_wf : GatherDims.WF S50000x32 S16384x20x1 S16384x20x32 [2] [0] [] [0] [] 2 ![1, 32]
  dot_S16384x128_S128x32_S16384x32_1_0_0_1_n_n_wf : DotDims.WF S16384x128 S128x32 S16384x32 [1] [0] [0] [1] [] []
  dot_S16384x896_S896x512_S16384x512_1_0_0_1_n_n_wf : DotDims.WF S16384x896 S896x512 S16384x512 [1] [0] [0] [1] [] []
  dot_S16384x512_S512x256_S16384x256_1_0_0_1_n_n_wf : DotDims.WF S16384x512 S512x256 S16384x256 [1] [0] [0] [1] [] []

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S50000x32_S16384x20x1_S16384x20x32_2_0_n_n_0_2_132 : GatherDims S50000x32 S16384x20x1 S16384x20x32 where
  offsetDims := [2]
  collapsedSliceDims := [0]
  operandBatchingDims := []
  startIndicesBatchingDims := []
  startIndexMap := [0]
  indexVectorDim := 2
  sliceSizes := ![1, 32]
  wf := gather_S50000x32_S16384x20x1_S16384x20x32_2_0_n_n_0_2_132_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x896_S896x512_S16384x512_1_0_0_1_n_n : DotDims S16384x896 S896x512 S16384x512 where
  lhsContracting := [1]
  rhsContracting := [0]
  lhsNonContracting := [0]
  rhsNonContracting := [1]
  lhsBatch := []
  rhsBatch := []
  wf := dot_S16384x896_S896x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibKeepdims3.lean ====
/-
  Keep-dims layout steps of rank-2 and rank-3 vectors, and the swap of the first two axes of a rank-3 vector, each read
  at an index written by its coordinates.

  * `shapeCast_ab_ab1_apply`: an `[a, b]` array cast to `[a, b, 1]` reads, at `(p, q, u)`, the operand at `(p, q)`;
  * `broadcastTo_ab1_abc_apply`: an `[a, b, 1]` array broadcast to `[a, b, c]` reads, at `(p, q, k)`, the operand at `(p, q, 0)`;
  * `broadcastTo_1bc_abc_apply`: a `[1, b, c]` array broadcast to `[a, b, c]` reads, at `(m, p, q)`, the operand at `(0, p, q)`;
  * `broadcastTo_a1_ab_apply`: an `[a, 1]` column broadcast to `[a, b]` reads, at `(p, q)`, the operand at `(p, 0)`;
  * `transpose_ix3_102_apply`: an `[m, a, b]` array with its first two axes swapped reads, at `(i, k, j)`, the operand at `(k, i, j)`.
  All hold for any extents and any element type.
-/
import Idealize.ShloMosaic.Lib.ValueIdx
import Idealize.ShloMosaic.Lib.Pipeline.Value

namespace Cert.LibKeepdims3

open Idealize.ShloMosaic Idealize.ShloMosaic.ValueIdx

variable {α : Type}

/-- An `[a, b]` array cast to `[a, b, 1]` reads, at `(p, q, u)`, the operand at `(p, q)`: the two row-major positions
    agree because the unit coordinate is `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    exact (if_pos rfl).symm

/-- A `[1, b, c]` array broadcast to `[a, b, c]` reads, at `(m, p, q)`, the operand at `(0, p, q)`. -/
theorem broadcastTo_1bc_abc_apply {a b c : ℕ} (x : (⟨3, ![1, b, c]⟩ : Shape).Idx → α)
    (h : (⟨3, ![1, b, c]⟩ : Shape).Broadcasts ⟨3, ![a, b, c]⟩) (m : Fin a) (p : Fin b) (q : Fin c) :
    broadcastTo ⟨3, ![a, b, c]⟩ x h (ix3 m p q) = x (ix3 (0 : Fin 1) p q) := by
  refine broadcastTo_apply x h (ix3 m p q) (ix3 (0 : Fin 1) p q) fun ax => ?_
  match ax with
  | ⟨0, _⟩ =>
    exact (if_pos rfl).symm
  | ⟨1, _⟩ =>
    show p.val = if b = 1 then 0 else p.val
    split
    · have := p.isLt; omega
    · rfl
  | ⟨2, _⟩ =>
    show q.val = if c = 1 then 0 else q.val
    split
    · have := q.isLt; omega
    · rfl

/-- An `[a, 1]` column broadcast to `[a, b]` reads, at `(p, q)`, the operand at `(p, 0)`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ =>
    exact (if_pos rfl).symm

/-- An `[m, a, b]` array with its first two axes swapped (permutation `[1, 0, 2]`) reads, at `(i, k, j)`, the operand
    at `(k, i, j)`. -/
theorem transpose_ix3_102_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

end Cert.LibKeepdims3
-- ==== Proof.LibMidAxis.lean ====
/-
  The middle axis of a rank-3 vector: summed away, and merged with the last axis.

  * `multiReduction_add_mid3_apply`: the sum over the MIDDLE axis of an `[a, b, c]` vector, at the ideal values, read
    at `(p, q)` of the `[a, c]` result, is `∑ k : Fin b, src (p, k, q)` — for any extents and any float format,
    whatever the (neutral) accumulator word;
  * `shapeCast_abc_aN_apply`: an `[a, b, c]` array cast to `[a, n]` with `n = b · c` reads, at `(p, k)` with
    `k = f · c + e`, the operand at `(p, f, e)`: the two row-major positions are the same number.
-/
import Idealize.ShloMosaic.Lib.ValueIdx
import Idealize.ShloMosaic.Lib.Pipeline.Value
import Idealize.ShloMosaic.PureOps.Ideal.Laws

noncomputable section

open scoped BigOperators

namespace Cert.LibMidAxis

open Idealize.ShloMosaic Idealize.ShloMosaic.ValueIdx

/-- The index a middle-axis reduction of a rank-3 shape inserts coordinate `k` into, at `(p, q)`, is `(p, k, q)`. -/
theorem lift_mid3 {a b c : ℕ} (h : (⟨3, ![a, b, c]⟩ : Shape).Reduces [1] ⟨2, ![a, c]⟩) (p : Fin a) (q : Fin c)
    (k : Fin b) : h.lift (ix2 p q) k = ix3 p k q :=
  funext fun ax => Fin.ext (by match ax with | ⟨0, _⟩ => rfl | ⟨1, _⟩ => rfl | ⟨2, _⟩ => rfl)

/-- The sum over the middle axis of an `[a, b, c]` vector, read at `(p, q)`: `∑ k, src (p, k, q)`. -/
theorem multiReduction_add_mid3_apply {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.add.neutral φ hφ) (p : Fin a) (q : Fin c) :
    multiReduction .add [1] ⟨2, ![a, c]⟩ src acc h hφ hacc (ix2 p q) = ∑ k : Fin b, src (ix3 p k q) :=
  (Ideal.multiReduction_add_single src acc h hφ hacc (ix2 p q)).trans
    (Finset.sum_congr rfl fun k _ => congrArg src (lift_mid3 h p q k))

variable {α : Type}

/-- An `[a, b, c]` array cast to `[a, n]`, `n = b · c`, reads at `(p, k)`, `k = f · c + e`, the operand at `(p, f, e)`. -/
theorem shapeCast_abc_aN_apply {a b c n : ℕ} (x : (⟨3, ![a, b, c]⟩ : Shape).Idx → α)
    (h : (⟨3, ![a, b, c]⟩ : Shape).ShapeCasts ⟨2, ![a, n]⟩) (hn : n = b * c) (p : Fin a) (k : Fin n) (f : Fin b)
    (e : Fin c) (hk : k.val = f.val * c + e.val) :
    shapeCast ⟨2, ![a, n]⟩ x h (ix2 p k) = x (ix3 p f e) :=
  shapeCast_apply x h _ _ (by
    rw [Shape.rowMajor_val_three, Shape.rowMajor_val_two]
    show (p.val * b + f.val) * c + e.val = p.val * n + k.val
    rw [hk, hn]; ring)

end Cert.LibMidAxis

end
-- ==== Proof.LibSumSplit.lean ====
/-
  A finite sum over an index set cut into three consecutive stretches.

  * `sum_split3`: in any additive commutative monoid, a sum over `Fin (a + b + c)` is the sum over the first `a`
    indices, plus the sum over the next `b` (index `a + k`), plus the sum over the last `c` (index `a + b + k`),
    grouped to the left. Only associativity and commutativity of `+` are used, so it holds on the extended reals
    with no finiteness side condition: it is what makes a matrix product against a row-wise concatenation of three
    blocks the sum of the three blocks' products.
-/
import Mathlib.Algebra.BigOperators.Fin

open scoped BigOperators

namespace Cert.LibSumSplit

/-- A sum over `Fin (a + b + c)` is the sum of its three consecutive stretches of lengths `a`, `b` and `c`. -/
theorem sum_split3 {M : Type*} [AddCommMonoid M] (a b c : ℕ) (g : Fin (a + b + c) → M) :
    ∑ k, g k
      = (∑ k : Fin a, g ⟨k.val, by have := k.isLt; omega⟩ + ∑ k : Fin b, g ⟨a + k.val, by have := k.isLt; omega⟩)
        + ∑ k : Fin c, g ⟨a + b + k.val, by have := k.isLt; omega⟩ := by
  rw [Fin.sum_univ_add, Fin.sum_univ_add]
  rfl

end Cert.LibSumSplit
-- ==== Proof.Row.lean ====
/-
  One row of the network, as a function of that row's slices of the inputs.

  For one batch row the result is

      (Σ_f fg f · xv f)  +  Σ_e ½·((Σ_f E f e)² − Σ_f (E f e)²)  +  Σ_j h₂ j  +  bias,

  where `E f e = sg f e · xv f` are the scaled second-order embeddings, `h₂ = relu(h₁ · W₂ + b₂)`,
  `h₁ = relu(d · W₁ + b₁)`, and the 896-long deep input `d` is the row-major flattening of `E` (832 entries) followed by
  the title embedding `Σ_l tw l e` (32 entries) and the video projection `Σ_k vid k · vw e k + vb e` (32 entries).

  Two arrangements of the first layer are written down: `layer1`, the product of the concatenated input `d` with all of
  `W₁`; and `layer1Split`, the sum of the three products of the three pieces of `d` with the matching row stretches of
  `W₁` (rows 0–831, 832–863, 864–895). They are equal because a sum over 896 indices is the sum of its three
  consecutive stretches — associativity and commutativity of `+` only, so the equality holds on the extended reals
  whatever the values, infinite ones included.
-/
import proofs.«155336_j45208825757783_2_alg».proof.Proof.LibSumSplit
import Mathlib.Data.EReal.Operations

noncomputable section

open scoped BigOperators

namespace Cert.Row

/-- The scaled second-order embedding of field `f` at coordinate `e`. -/
def emb (xv : Fin 26 → EReal) (sg : Fin 26 → Fin 32 → EReal) (f : Fin 26) (e : Fin 32) : EReal := sg f e * xv f

/-- The first-order term: the weighted sum of the row's first-order entries. -/
def fmFirst (xv fg : Fin 26 → EReal) : EReal := ∑ f, fg f * xv f

/-- The second-order term: half of (square of the sum − sum of the squares), summed over the embedding coordinates. -/
def fmSecond (half : EReal) (E : Fin 26 → Fin 32 → EReal) : EReal :=
  ∑ e, half * ((∑ f, E f e) * (∑ f, E f e) - ∑ f, E f e * E f e)

/-- The title embedding: the sum of the row's weighted title rows. -/
def titleEmb (tw : Fin 20 → Fin 32 → EReal) (e : Fin 32) : EReal := ∑ l, tw l e

/-- The video projection: the row's video features against row `e` of the projection matrix, plus its bias. -/
def videoEmb (vid : Fin 128 → EReal) (vw : Fin 32 → Fin 128 → EReal) (vb : Fin 32 → EReal) (e : Fin 32) : EReal :=
  (∑ k, vid k * vw e k) + vb e

/-- The row-major flattening of the 26 × 32 embeddings: entry `k` is field `k / 32`, coordinate `k % 32`. -/
def flat (E : Fin 26 → Fin 32 → EReal) (k : Fin 832) : EReal :=
  E ⟨k.val / 32, by have := k.isLt; omega⟩ ⟨k.val % 32, by omega⟩

/-- The deep input: the flattened embeddings, then the title embedding, then the video projection. -/
def deep (E : Fin 26 → Fin 32 → EReal) (T V : Fin 32 → EReal) (k : Fin 896) : EReal :=
  if h : k.val < 832 then flat E ⟨k.val, h⟩
  else if h' : k.val < 864 then T ⟨k.val - 832, by omega⟩
  else V ⟨k.val - 864, by have := k.isLt; omega⟩

/-- The first layer on the concatenated input. -/
def layer1 (zero : EReal) (D : Fin 896 → EReal) (w1 : Fin 896 → Fin 512 → EReal) (b1 : Fin 512 → EReal)
    (j : Fin 512) : EReal :=
  max ((∑ k, D k * w1 k j) + b1 j) zero

/-- The first layer as three products, one per piece of the input, each against its own block of weights. -/
def layer1Split (zero : EReal) (A : Fin 832 → EReal) (T V : Fin 32 → EReal) (wa : Fin 832 → Fin 512 → EReal)
    (wb wc : Fin 32 → Fin 512 → EReal) (b1 : Fin 512 → EReal) (j : Fin 512) : EReal :=
  max ((((∑ k, A k * wa k j) + ∑ k, T k * wb k j) + ∑ k, V k * wc k j) + b1 j) zero

/-- Rows 0–831 of the first layer's weights. -/
def rowsA (w1 : Fin 896 → Fin 512 → EReal) (k : Fin 832) (j : Fin 512) : EReal := w1 ⟨k.val, by have := k.isLt; omega⟩ j
/-- Rows 832–863 of the first layer's weights. -/
def rowsB (w1 : Fin 896 → Fin 512 → EReal) (k : Fin 32) (j : Fin 512) : EReal :=
  w1 ⟨832 + k.val, by have := k.isLt; omega⟩ j
/-- Rows 864–895 of the first layer's weights. -/
def rowsC (w1 : Fin 896 → Fin 512 → EReal) (k : Fin 32) (j : Fin 512) : EReal :=
  w1 ⟨864 + k.val, by have := k.isLt; omega⟩ j

/-- The second layer. -/
def layer2 (zero : EReal) (H : Fin 512 → EReal) (w2 : Fin 512 → Fin 256 → EReal) (b2 : Fin 256 → EReal)
    (j : Fin 256) : EReal :=
  max ((∑ k, H k * w2 k j) + b2 j) zero

/-- The row's result, the first layer on the concatenated input. -/
def rowOut (half zero : EReal) (xv fg : Fin 26 → EReal) (sg : Fin 26 → Fin 32 → EReal) (tw : Fin 20 → Fin 32 → EReal)
    (vid : Fin 128 → EReal) (vw : Fin 32 → Fin 128 → EReal) (vb : Fin 32 → EReal) (w1 : Fin 896 → Fin 512 → EReal)
    (b1 : Fin 512 → EReal) (w2 : Fin 512 → Fin 256 → EReal) (b2 : Fin 256 → EReal) (bias : EReal) : EReal :=
  ((fmFirst xv fg + fmSecond half (emb xv sg))
    + ∑ j, layer2 zero (layer1 zero (deep (emb xv sg) (titleEmb tw) (videoEmb vid vw vb)) w1 b1) w2 b2 j) + bias

/-- The row's result, the first layer as three products. -/
def rowOutSplit (half zero : EReal) (xv fg : Fin 26 → EReal) (sg : Fin 26 → Fin 32 → EReal)
    (tw : Fin 20 → Fin 32 → EReal) (vid : Fin 128 → EReal) (vw : Fin 32 → Fin 128 → EReal) (vb : Fin 32 → EReal)
    (wa : Fin 832 → Fin 512 → EReal) (wb wc : Fin 32 → Fin 512 → EReal) (b1 : Fin 512 → EReal)
    (w2 : Fin 512 → Fin 256 → EReal) (b2 : Fin 256 → EReal) (bias : EReal) : EReal :=
  ((fmFirst xv fg + fmSecond half (emb xv sg))
    + ∑ j, layer2 zero (layer1Split zero (flat (emb xv sg)) (titleEmb tw) (videoEmb vid vw vb) wa wb wc b1) w2 b2 j)
    + bias

/-- The three products add up to the product with the concatenated input: the sum over the 896 rows of the weights
    is the sum of its stretches 0–831, 832–863 and 864–895, on each of which the deep input is the matching piece. -/
theorem layer1Split_eq (zero : EReal) (E : Fin 26 → Fin 32 → EReal) (T V : Fin 32 → EReal)
    (w1 : Fin 896 → Fin 512 → EReal) (b1 : Fin 512 → EReal) (j : Fin 512) :
    layer1Split zero (flat E) T V (rowsA w1) (rowsB w1) (rowsC w1) b1 j = layer1 zero (deep E T V) w1 b1 j := by
  unfold layer1Split layer1 rowsA rowsB rowsC
  refine congrArg (fun s => max (s + b1 j) zero) ?_
  refine Eq.trans ?_ (LibSumSplit.sum_split3 832 32 32 (fun k : Fin (832 + 32 + 32) => deep E T V k * w1 k j)).symm
  refine congrArg₂ (· + ·) (congrArg₂ (· + ·) ?_ ?_) ?_
  · refine Finset.sum_congr rfl fun k _ => ?_
    have hk := k.isLt
    refine congrArg (· * _) ?_
    unfold deep
    rw [dif_pos (show k.val < 832 from hk)]
  · refine Finset.sum_congr rfl fun k _ => ?_
    have hk := k.isLt
    refine congrArg (· * _) ?_
    unfold deep
    rw [dif_neg (show ¬ (832 + k.val < 832) by omega), dif_pos (show 832 + k.val < 864 by omega)]
    exact congrArg T (Fin.ext (by show k.val = 832 + k.val - 832; omega))
  · refine Finset.sum_congr rfl fun k _ => ?_
    have hk := k.isLt
    refine congrArg (· * _) ?_
    unfold deep
    rw [dif_neg (show ¬ (832 + 32 + k.val < 832) by omega), dif_neg (show ¬ (832 + 32 + k.val < 864) by omega)]
    exact congrArg V (Fin.ext (by show k.val = 832 + 32 + k.val - 864; omega))

/-- So the two arrangements of the row's result agree. -/
theorem rowOutSplit_eq (half zero : EReal) (xv fg : Fin 26 → EReal) (sg : Fin 26 → Fin 32 → EReal)
    (tw : Fin 20 → Fin 32 → EReal) (vid : Fin 128 → EReal) (vw : Fin 32 → Fin 128 → EReal) (vb : Fin 32 → EReal)
    (w1 : Fin 896 → Fin 512 → EReal) (b1 : Fin 512 → EReal) (w2 : Fin 512 → Fin 256 → EReal) (b2 : Fin 256 → EReal)
    (bias : EReal) :
    rowOutSplit half zero xv fg sg tw vid vw vb (rowsA w1) (rowsB w1) (rowsC w1) b1 w2 b2 bias
      = rowOut half zero xv fg sg tw vid vw vb w1 b1 w2 b2 bias := by
  unfold rowOutSplit rowOut
  have e : layer1Split zero (flat (emb xv sg)) (titleEmb tw) (videoEmb vid vw vb) (rowsA w1) (rowsB w1) (rowsC w1) b1
      = layer1 zero (deep (emb xv sg) (titleEmb tw) (videoEmb vid vw vb)) w1 b1 :=
    funext fun j => layer1Split_eq zero _ _ _ w1 b1 j
  rw [e]

end Cert.Row

end
-- ==== Proof.KernelParts.lean ====
/-
  The body's intermediate values, each read at one index of one block, as functions of that row of the blocks.

  For a row `p` of the 512-row block: the first-order sum is `Σ_f fg(p,f)·xv(p,f)`; the scaled embedding at `(p,f,e)`
  is `sg(p,f,e)·xv(p,f)` (the `[512,26]` weights cast to a unit last axis and broadcast along it); its sums over the
  field axis give the second-order term; its row-major flattening to `[512,832]` reads field `k/32`, coordinate `k%32`
  at column `k`; the title embedding is the sum over the title axis; and the video projection is the row of video
  features against the transposed weights, plus the bias row broadcast over the block. Changes of float format are the
  identity on the extended reals.
-/
import proofs.«155336_j45208825757783_2_alg».proof.Proof.Gen.KernelIdeal.Skeleton
import proofs.«155336_j45208825757783_2_alg».proof.Proof.LibBlock
import proofs.«155336_j45208825757783_2_alg».proof.Proof.LibRowSum
import proofs.«155336_j45208825757783_2_alg».proof.Proof.LibKeepdims3
import proofs.«155336_j45208825757783_2_alg».proof.Proof.LibMidAxis
import proofs.«155336_j45208825757783_2_alg».proof.Proof.Row
import Idealize.ShloMosaic.Lib.ValueLayout

noncomputable section

open scoped BigOperators

namespace Cert.KernelIdeal.Payload

open Cert.KernelIdeal Cert.KernelIdeal.Gen Idealize.ShloMosaic Idealize.ShloMosaic.ValueIdx Cert

/-- The first-order sum at row `p`. -/
theorem pay2_apply (x0 x1 : FVec Ideal S512x26 .f32) (p : Fin 512) :
    k0_pay2 (F := Ideal) x0 x1 (ix1 p) = Row.fmFirst (fun f => x0 (ix2 p f)) (fun f => x1 (ix2 p f)) := by
  unfold k0_pay2 Row.fmFirst
  refine (LibRowSum.multiReduction_add_lanes_apply _ _ _ _ _ p).trans ?_
  refine Finset.sum_congr rfl fun f _ => ?_
  show shapeCast S512x26 x1 shapeCasts_S512x26_S512x26 (ix2 p f) * x0 (ix2 p f) = x1 (ix2 p f) * x0 (ix2 p f)
  rw [shapeCast_self]

/-- The scaled embedding at `(p, f, e)`. -/
theorem pay3_apply (x0 : FVec Ideal S512x26 .f32) (x2 : FVec Ideal S512x26x32 .bf16) (p : Fin 512) (f : Fin 26)
    (e : Fin 32) :
    k0_pay3 (F := Ideal) x0 x2 (ix3 p f e) = Row.emb (fun f => x0 (ix2 p f)) (fun f e => x2 (ix3 p f e)) f e := by
  unfold k0_pay3 Row.emb
  show shapeCast S512x26x32 x2 shapeCasts_S512x26x32_S512x26x32 (ix3 p f e)
      * broadcastTo S512x26x32 (shapeCast S512x26x1 x0 shapeCasts_S512x26_S512x26x1) broadcasts_S512x26x1_S512x26x32
          (ix3 p f e) = x2 (ix3 p f e) * x0 (ix2 p f)
  rw [shapeCast_self]
  refine congrArg (x2 (ix3 p f e) * ·) ?_
  exact (LibKeepdims3.broadcastTo_ab1_abc_apply _ _ p f e).trans
    (LibKeepdims3.shapeCast_ab_ab1_apply x0 _ p f 0)

/-- The second-order term at row `p`. -/
theorem pay4_apply (x0 : FVec Ideal S512x26 .f32) (x2 : FVec Ideal S512x26x32 .bf16) (p : Fin 512) :
    k0_pay4 (F := Ideal) x0 x2 (ix1 p)
      = Row.fmSecond (Ideal.ofBits .f32 0x3F000000#32) (Row.emb (fun f => x0 (ix2 p f)) (fun f e => x2 (ix3 p f e))) := by
  unfold k0_pay4 Row.fmSecond
  refine (LibRowSum.multiReduction_add_lanes_apply _ _ _ _ _ p).trans ?_
  refine Finset.sum_congr rfl fun e _ => ?_
  have hs : multiReduction .add [1] S512x32 (k0_pay3 (F := Ideal) x0 x2) 0x00000000#32 reduces_S512x26x32_S512x32
      (.inl rfl) rfl (ix2 p e)
      = ∑ f, Row.emb (fun f => x0 (ix2 p f)) (fun f e => x2 (ix3 p f e)) f e :=
    (LibMidAxis.multiReduction_add_mid3_apply _ _ _ _ _ p e).trans
      (Finset.sum_congr rfl fun f _ => pay3_apply x0 x2 p f e)
  have hq : multiReduction .add [1] S512x32 (mulf (k0_pay3 (F := Ideal) x0 x2) (k0_pay3 (F := Ideal) x0 x2))
      0x00000000#32 reduces_S512x26x32_S512x32 (.inl rfl) rfl (ix2 p e)
      = ∑ f, Row.emb (fun f => x0 (ix2 p f)) (fun f e => x2 (ix3 p f e)) f e
          * Row.emb (fun f => x0 (ix2 p f)) (fun f e => x2 (ix3 p f e)) f e :=
    (LibMidAxis.multiReduction_add_mid3_apply _ _ _ _ _ p e).trans
      (Finset.sum_congr rfl fun f _ => by
        show k0_pay3 (F := Ideal) x0 x2 (ix3 p f e) * k0_pay3 (F := Ideal) x0 x2 (ix3 p f e) = _
        rw [pay3_apply])
  show Ideal.ofBits .f32 0x3F000000#32
      * (multiReduction .add [1] S512x32 (k0_pay3 (F := Ideal) x0 x2) 0x00000000#32 reduces_S512x26x32_S512x32
            (.inl rfl) rfl (ix2 p e)
          * multiReduction .add [1] S512x32 (k0_pay3 (F := Ideal) x0 x2) 0x00000000#32 reduces_S512x26x32_S512x32
            (.inl rfl) rfl (ix2 p e)
        - multiReduction .add [1] S512x32 (mulf (k0_pay3 (F := Ideal) x0 x2) (k0_pay3 (F := Ideal) x0 x2))
            0x00000000#32 reduces_S512x26x32_S512x32 (.inl rfl) rfl (ix2 p e)) = _
  rw [hs, hq]

/-- The flattened scaled embedding at `(p, k)`: field `k / 32`, coordinate `k % 32`. -/
theorem pay5_apply (x0 : FVec Ideal S512x26 .f32) (x2 : FVec Ideal S512x26x32 .bf16) (p : Fin 512) (k : Fin 832) :
    k0_pay5 (F := Ideal) x0 x2 (ix2 p k)
      = Row.flat (Row.emb (fun f => x0 (ix2 p f)) (fun f e => x2 (ix3 p f e))) k := by
  unfold k0_pay5 Row.flat
  have hk := k.isLt
  show shapeCast S512x832 (k0_pay3 (F := Ideal) x0 x2) shapeCasts_S512x26x32_S512x832 (ix2 p k) = _
  refine (LibMidAxis.shapeCast_abc_aN_apply (k0_pay3 (F := Ideal) x0 x2) shapeCasts_S512x26x32_S512x832 rfl p k
    ⟨k.val / 32, by omega⟩ ⟨k.val % 32, by omega⟩ (by show k.val = k.val / 32 * 32 + k.val % 32; omega)).trans ?_
  exact pay3_apply x0 x2 p _ _

/-- The title embedding at `(p, e)`. -/
theorem pay6_apply (x3 : FVec Ideal S512x20x32 .bf16) (p : Fin 512) (e : Fin 32) :
    k0_pay6 (F := Ideal) x3 (ix2 p e) = Row.titleEmb (fun l e => x3 (ix3 p l e)) e := by
  unfold k0_pay6 Row.titleEmb
  show multiReduction .add [1] S512x32 (extf .f32 (shapeCast S512x20x32 x3 shapeCasts_S512x20x32_S512x20x32)
      bitsLt_bf16_f32) 0x00000000#32 reduces_S512x20x32_S512x32 (.inl rfl) rfl (ix2 p e) = _
  refine (LibMidAxis.multiReduction_add_mid3_apply _ _ _ _ _ p e).trans ?_
  refine Finset.sum_congr rfl fun l _ => ?_
  show shapeCast S512x20x32 x3 shapeCasts_S512x20x32_S512x20x32 (ix3 p l e) = _
  rw [shapeCast_self]

/-- The video projection at `(p, e)`. -/
theorem pay7_apply (x4 : FVec Ideal S512x128 .f32) (x5 : FVec Ideal S32x128 .bf16) (x6 : FVec Ideal S32 .f32)
    (p : Fin 512) (e : Fin 32) :
    k0_pay7 (F := Ideal) x4 x5 x6 (ix2 p e)
      = Row.videoEmb (fun k => x4 (ix2 p k)) (fun e k => x5 (ix2 e k)) (fun e => x6 (ix1 e)) e := by
  unfold k0_pay7 Row.videoEmb
  show matmul dot_S512x128_S128x32_S512x32_1_0_0_1_n_n none (truncf .bf16 x4 bitsLt_bf16_f32)
        (transpose S128x32 [1, 0] (shapeCast S32x128 x5 shapeCasts_S32x128_S32x128) transposes_S32x128_p1_0_S128x32)
        (constant S512x32 .f32 0x00000000#32) (ix2 p e)
      + broadcastTo S512x32 (shapeCast S1x32 x6 shapeCasts_S32_S1x32) broadcasts_S1x32_S512x32 (ix2 p e) = _
  refine congrArg₂ (· + ·) ?_ ?_
  · refine (LibBlock.matmul_zero_ix2 dot_S512x128_S128x32_S512x32_1_0_0_1_n_n rfl rfl rfl rfl rfl rfl none _ _ p e).trans ?_
    refine Finset.sum_congr rfl fun k _ => ?_
    refine congrArg (x4 (ix2 p k) * ·) ?_
    refine (transpose_ix2_apply _ _ k e).trans ?_
    rw [shapeCast_self]
  · exact (broadcastTo_1b_ab_apply _ _ p e).trans (shapeCast_a_1a_apply x6 _ 0 e)

end Cert.KernelIdeal.Payload

end
-- ==== Proof.KernelRow.lean ====
/-
  What the body stores, at row `p` of the block, as the row function of that row of the input blocks.

  The first hidden layer is three matrix products into zero accumulators added together — the flattened embeddings
  against rows 0–831 of the weights, the title embedding against rows 832–863, the video projection against rows
  864–895 — plus the bias row, then the maximum with zero; the second hidden layer is one product plus its bias row,
  then the maximum with zero; the stored value adds the first-order sum, the second-order term, the sum of the second
  layer's 256 outputs, and the scalar bias. Each matrix product read at `(p, q)` is the sum over the contracted
  coordinate of the products of entries; each lane sum read at a row is the sum over the lanes.
-/
import proofs.«155336_j45208825757783_2_alg».proof.Proof.KernelParts

noncomputable section

open scoped BigOperators

namespace Cert.KernelIdeal.Payload

open Cert.KernelIdeal Cert.KernelIdeal.Gen Idealize.ShloMosaic Idealize.ShloMosaic.ValueIdx Cert

/-- The first hidden layer at `(p, k)`: the three products, the bias, the maximum with zero. -/
theorem hidden1_apply (v34 : FVec Ideal S512x832 .bf16) (v35 v36 : FVec Ideal S512x32 .bf16)
    (v37 : FVec Ideal S832x512 .bf16) (v39 v41 : FVec Ideal S32x512 .bf16) (v48 : FVec Ideal S512 .f32) (p k : Fin 512) :
    (maximumf (addf (addf (addf (matmul dot_S512x832_S832x512_S512x512_1_0_0_1_n_n none v34 (shapeCast S832x512 v37 shapeCasts_S832x512_S832x512) (constant S512x512 .f32 0x00000000#32)) (matmul dot_S512x32_S32x512_S512x512_1_0_0_1_n_n none v35 (shapeCast S32x512 v39 shapeCasts_S32x512_S32x512) (constant S512x512 .f32 0x00000000#32))) (matmul dot_S512x32_S32x512_S512x512_1_0_0_1_n_n none v36 (shapeCast S32x512 v41 shapeCasts_S32x512_S32x512) (constant S512x512 .f32 0x00000000#32))) (broadcastTo S512x512 (shapeCast S1x512 v48 shapeCasts_S512_S1x512) broadcasts_S1x512_S512x512)) (broadcast S512x512 (Scalar.ofBits .f32 0x00000000#32)) : FVec Ideal S512x512 .f32) (ix2 p k)
      = Row.layer1Split (Ideal.ofBits .f32 0x00000000#32) (fun a => v34 (ix2 p a)) (fun a => v35 (ix2 p a)) (fun a => v36 (ix2 p a)) (fun a k => v37 (ix2 a k)) (fun a k => v39 (ix2 a k)) (fun a k => v41 (ix2 a k)) (fun k => v48 (ix1 k)) k := by
  unfold Row.layer1Split
  show max (((((matmul dot_S512x832_S832x512_S512x512_1_0_0_1_n_n none v34 (shapeCast S832x512 v37 shapeCasts_S832x512_S832x512) (constant S512x512 .f32 0x00000000#32)) : FVec Ideal S512x512 .f32) (ix2 p k)
        + ((matmul dot_S512x32_S32x512_S512x512_1_0_0_1_n_n none v35 (shapeCast S32x512 v39 shapeCasts_S32x512_S32x512) (constant S512x512 .f32 0x00000000#32)) : FVec Ideal S512x512 .f32) (ix2 p k))
        + ((matmul dot_S512x32_S32x512_S512x512_1_0_0_1_n_n none v36 (shapeCast S32x512 v41 shapeCasts_S32x512_S32x512) (constant S512x512 .f32 0x00000000#32)) : FVec Ideal S512x512 .f32) (ix2 p k))
        + ((broadcastTo S512x512 (shapeCast S1x512 v48 shapeCasts_S512_S1x512) broadcasts_S1x512_S512x512) : FVec Ideal S512x512 .f32) (ix2 p k)) (Ideal.ofBits .f32 0x00000000#32) = _
  refine congrArg₂ max (congrArg₂ (· + ·) (congrArg₂ (· + ·) (congrArg₂ (· + ·) ?_ ?_) ?_) ?_) rfl
  · refine (LibBlock.matmul_zero_ix2 dot_S512x832_S832x512_S512x512_1_0_0_1_n_n rfl rfl rfl rfl rfl rfl none _ _ p k).trans ?_
    exact Finset.sum_congr rfl fun a _ => by rw [shapeCast_self]
  · refine (LibBlock.matmul_zero_ix2 dot_S512x32_S32x512_S512x512_1_0_0_1_n_n rfl rfl rfl rfl rfl rfl none _ _ p k).trans ?_
    exact Finset.sum_congr rfl fun a _ => by rw [shapeCast_self]
  · refine (LibBlock.matmul_zero_ix2 dot_S512x32_S32x512_S512x512_1_0_0_1_n_n rfl rfl rfl rfl rfl rfl none _ _ p k).trans ?_
    exact Finset.sum_congr rfl fun a _ => by rw [shapeCast_self]
  · exact (broadcastTo_1b_ab_apply _ _ p k).trans (shapeCast_a_1a_apply v48 _ 0 k)

/-- The second hidden layer at `(p, j)`, over any first hidden layer `h1`. -/
theorem hidden2_apply (h1 : FVec Ideal S512x512 .f32) (v55 : FVec Ideal S512x256 .bf16) (v58 : FVec Ideal S256 .f32)
    (p : Fin 512) (j : Fin 256) :
    (maximumf (addf (matmul dot_S512x512_S512x256_S512x256_1_0_0_1_n_n none (truncf .bf16 h1 bitsLt_bf16_f32) (shapeCast S512x256 v55 shapeCasts_S512x256_S512x256) (constant S512x256 .f32 0x00000000#32)) (broadcastTo S512x256 (shapeCast S1x256 v58 shapeCasts_S256_S1x256) broadcasts_S1x256_S512x256)) (broadcast S512x256 (Scalar.ofBits .f32 0x00000000#32)) : FVec Ideal S512x256 .f32) (ix2 p j)
      = Row.layer2 (Ideal.ofBits .f32 0x00000000#32) (fun k => h1 (ix2 p k)) (fun k j => v55 (ix2 k j)) (fun j => v58 (ix1 j)) j := by
  unfold Row.layer2
  show max ((((matmul dot_S512x512_S512x256_S512x256_1_0_0_1_n_n none (truncf .bf16 h1 bitsLt_bf16_f32) (shapeCast S512x256 v55 shapeCasts_S512x256_S512x256) (constant S512x256 .f32 0x00000000#32)) : FVec Ideal S512x256 .f32) (ix2 p j))
        + ((broadcastTo S512x256 (shapeCast S1x256 v58 shapeCasts_S256_S1x256) broadcasts_S1x256_S512x256) : FVec Ideal S512x256 .f32) (ix2 p j)) (Ideal.ofBits .f32 0x00000000#32) = _
  refine congrArg₂ max (congrArg₂ (· + ·) ?_ ?_) rfl
  · refine (LibBlock.matmul_zero_ix2 dot_S512x512_S512x256_S512x256_1_0_0_1_n_n rfl rfl rfl rfl rfl rfl none _ _ p j).trans ?_
    exact Finset.sum_congr rfl fun a _ => by rw [shapeCast_self]; rfl
  · exact (broadcastTo_1b_ab_apply _ _ p j).trans (shapeCast_a_1a_apply v58 _ 0 j)

/-- The stored value at row `p`, over any first-order sum, second-order term and layer inputs. -/
theorem pay1_apply (v8 v20 : FVec Ideal S512 .f32) (v34 : FVec Ideal S512x832 .bf16) (v35 v36 : FVec Ideal S512x32 .bf16)
    (v37 : FVec Ideal S832x512 .bf16) (v39 v41 : FVec Ideal S32x512 .bf16) (v48 : FVec Ideal S512 .f32)
    (v55 : FVec Ideal S512x256 .bf16) (v58 : FVec Ideal S256 .f32) (v67 : FVec Ideal S1 .f32) (p : Fin 512) :
    k0_pay1 (F := Ideal) v8 v20 v34 v35 v36 v37 v39 v41 v48 v55 v58 v67 (ix1 p)
      = ((v8 (ix1 p) + v20 (ix1 p))
          + ∑ j, Row.layer2 (Ideal.ofBits .f32 0x00000000#32) (Row.layer1Split (Ideal.ofBits .f32 0x00000000#32) (fun a => v34 (ix2 p a)) (fun a => v35 (ix2 p a)) (fun a => v36 (ix2 p a)) (fun a k => v37 (ix2 a k)) (fun a k => v39 (ix2 a k)) (fun a k => v41 (ix2 a k)) (fun k => v48 (ix1 k)))
              (fun k j => v55 (ix2 k j)) (fun j => v58 (ix1 j)) j)
        + v67 (ix1 0) := by
  unfold k0_pay1
  show ((v8 (ix1 p) + v20 (ix1 p))
      + multiReduction .add [1] S512 (maximumf (addf (matmul dot_S512x512_S512x256_S512x256_1_0_0_1_n_n none (truncf .bf16 (maximumf (addf (addf (addf (matmul dot_S512x832_S832x512_S512x512_1_0_0_1_n_n none v34 (shapeCast S832x512 v37 shapeCasts_S832x512_S832x512) (constant S512x512 .f32 0x00000000#32)) (matmul dot_S512x32_S32x512_S512x512_1_0_0_1_n_n none v35 (shapeCast S32x512 v39 shapeCasts_S32x512_S32x512) (constant S512x512 .f32 0x00000000#32))) (matmul dot_S512x32_S32x512_S512x512_1_0_0_1_n_n none v36 (shapeCast S32x512 v41 shapeCasts_S32x512_S32x512) (constant S512x512 .f32 0x00000000#32))) (broadcastTo S512x512 (shapeCast S1x512 v48 shapeCasts_S512_S1x512) broadcasts_S1x512_S512x512)) (broadcast S512x512 (Scalar.ofBits .f32 0x00000000#32))) bitsLt_bf16_f32) (shapeCast S512x256 v55 shapeCasts_S512x256_S512x256) (constant S512x256 .f32 0x00000000#32)) (broadcastTo S512x256 (shapeCast S1x256 v58 shapeCasts_S256_S1x256) broadcasts_S1x256_S512x256)) (broadcast S512x256 (Scalar.ofBits .f32 0x00000000#32)) : FVec Ideal S512x256 .f32)
          0x00000000#32 reduces_S512x256_S512 (.inl rfl) rfl (ix1 p))
      + extractAt ![0] v67 inpos_S1_p0 = _
  refine congrArg₂ (· + ·) (congrArg₂ (· + ·) rfl ?_) ?_
  · refine (LibRowSum.multiReduction_add_lanes_apply _ _ _ _ _ p).trans (Finset.sum_congr rfl fun j _ => ?_)
    refine (hidden2_apply _ v55 v58 p j).trans ?_
    exact congrArg (fun H => Row.layer2 (Ideal.ofBits .f32 0x00000000#32) H (fun k j => v55 (ix2 k j)) (fun j => v58 (ix1 j)) j)
      (funext fun k => hidden1_apply v34 v35 v36 v37 v39 v41 v48 p k)
  · exact congrArg v67 (funext fun a => Fin.ext (by match a with | ⟨0, _⟩ => rfl))

/-- The whole body at row `p`: the row function, first layer in three products, of row `p` of the row-blocked inputs
    and of the whole weight blocks. -/
theorem body_apply (x0 x1 : FVec Ideal S512x26 .f32) (x2 : FVec Ideal S512x26x32 .bf16)
    (x3 : FVec Ideal S512x20x32 .bf16) (x4 : FVec Ideal S512x128 .f32) (x5 : FVec Ideal S32x128 .bf16)
    (x6 : FVec Ideal S32 .f32) (wa : FVec Ideal S832x512 .bf16) (wb wc : FVec Ideal S32x512 .bf16)
    (x8 : FVec Ideal S512 .f32) (x9 : FVec Ideal S512x256 .bf16) (x10 : FVec Ideal S256 .f32)
    (x11 : FVec Ideal S1 .f32) (p : Fin 512) :
    k0_pay1 (F := Ideal) (k0_pay2 x0 x1) (k0_pay4 x0 x2) (k0_pay5 x0 x2) (k0_pay6 x3) (k0_pay7 x4 x5 x6) wa wb wc x8 x9
        x10 x11 (ix1 p)
      = Row.rowOutSplit (Ideal.ofBits .f32 0x3F000000#32) (Ideal.ofBits .f32 0x00000000#32) (fun f => x0 (ix2 p f)) (fun f => x1 (ix2 p f)) (fun f e => x2 (ix3 p f e))
          (fun l e => x3 (ix3 p l e)) (fun k => x4 (ix2 p k)) (fun e k => x5 (ix2 e k)) (fun e => x6 (ix1 e))
          (fun a k => wa (ix2 a k)) (fun a k => wb (ix2 a k)) (fun a k => wc (ix2 a k)) (fun k => x8 (ix1 k))
          (fun k j => x9 (ix2 k j)) (fun j => x10 (ix1 j)) (x11 (ix1 0)) := by
  refine (pay1_apply _ _ _ _ _ wa wb wc x8 x9 x10 x11 p).trans ?_
  unfold Row.rowOutSplit
  rw [pay2_apply, pay4_apply]
  simp only [pay5_apply, pay6_apply, pay7_apply]

end Cert.KernelIdeal.Payload

end
-- ==== Proof.Net.lean ====
/-
  The whole computation as one function of twelve arrays, row by row.

  The arrays are: the field weights `xv` and the gathered first-order entries `fg` (`[16384, 26]`), the gathered
  second-order embeddings `sg` (`[16384, 26, 32]`), the gathered and weighted title rows `tw` (`[16384, 20, 32]`), the
  video features `vid` (`[16384, 128]`), and the parameters `vw`, `vb`, `w1`, `b1`, `w2`, `b2`, `bias`. Entry `b` of the
  result is the row function of row `b` of the first five and of the whole parameters; the constants ½ and 0 are the
  values of their f32 words.
-/
import proofs.«155336_j45208825757783_2_alg».proof.Proof.Row
import Idealize.ShloMosaic.Lib.ValueIdx
import Idealize.ShloMosaic.PureOps.Ideal

noncomputable section

open scoped BigOperators

namespace Cert.Net

open Idealize.ShloMosaic Idealize.ShloMosaic.ValueIdx Cert

/-- The value of the f32 word of one half. -/
abbrev half : EReal := Ideal.ofBits .f32 0x3F000000#32
/-- The value of the f32 zero word. -/
abbrev zero : EReal := Ideal.ofBits .f32 0x00000000#32

/-- The result at batch row `b`. -/
def netRow (xv fg : (⟨2, ![16384, 26]⟩ : Shape).Idx → EReal) (sg : (⟨3, ![16384, 26, 32]⟩ : Shape).Idx → EReal)
    (tw : (⟨3, ![16384, 20, 32]⟩ : Shape).Idx → EReal) (vid : (⟨2, ![16384, 128]⟩ : Shape).Idx → EReal)
    (vw : (⟨2, ![32, 128]⟩ : Shape).Idx → EReal) (vb : (⟨1, ![32]⟩ : Shape).Idx → EReal) (w1 : (⟨2, ![896, 512]⟩ : Shape).Idx → EReal)
    (b1 : (⟨1, ![512]⟩ : Shape).Idx → EReal) (w2 : (⟨2, ![512, 256]⟩ : Shape).Idx → EReal) (b2 : (⟨1, ![256]⟩ : Shape).Idx → EReal)
    (bias : (⟨1, ![1]⟩ : Shape).Idx → EReal) (b : Fin 16384) : EReal :=
  Row.rowOut half zero (fun f => xv (ix2 b f)) (fun f => fg (ix2 b f)) (fun f e => sg (ix3 b f e))
    (fun l e => tw (ix3 b l e)) (fun k => vid (ix2 b k)) (fun e k => vw (ix2 e k)) (fun e => vb (ix1 e))
    (fun k j => w1 (ix2 k j)) (fun k => b1 (ix1 k)) (fun k j => w2 (ix2 k j)) (fun j => b2 (ix1 j)) (bias (ix1 0))

/-- The result array. -/
def net (xv fg : (⟨2, ![16384, 26]⟩ : Shape).Idx → EReal) (sg : (⟨3, ![16384, 26, 32]⟩ : Shape).Idx → EReal)
    (tw : (⟨3, ![16384, 20, 32]⟩ : Shape).Idx → EReal) (vid : (⟨2, ![16384, 128]⟩ : Shape).Idx → EReal)
    (vw : (⟨2, ![32, 128]⟩ : Shape).Idx → EReal) (vb : (⟨1, ![32]⟩ : Shape).Idx → EReal) (w1 : (⟨2, ![896, 512]⟩ : Shape).Idx → EReal)
    (b1 : (⟨1, ![512]⟩ : Shape).Idx → EReal) (w2 : (⟨2, ![512, 256]⟩ : Shape).Idx → EReal) (b2 : (⟨1, ![256]⟩ : Shape).Idx → EReal)
    (bias : (⟨1, ![1]⟩ : Shape).Idx → EReal) : (⟨1, ![16384]⟩ : Shape).Idx → EReal :=
  fun i => netRow xv fg sg tw vid vw vb w1 b1 w2 b2 bias ⟨(i 0).val, (i 0).isLt⟩

theorem net_ix1 (xv fg : (⟨2, ![16384, 26]⟩ : Shape).Idx → EReal) (sg : (⟨3, ![16384, 26, 32]⟩ : Shape).Idx → EReal)
    (tw : (⟨3, ![16384, 20, 32]⟩ : Shape).Idx → EReal) (vid : (⟨2, ![16384, 128]⟩ : Shape).Idx → EReal)
    (vw : (⟨2, ![32, 128]⟩ : Shape).Idx → EReal) (vb : (⟨1, ![32]⟩ : Shape).Idx → EReal) (w1 : (⟨2, ![896, 512]⟩ : Shape).Idx → EReal)
    (b1 : (⟨1, ![512]⟩ : Shape).Idx → EReal) (w2 : (⟨2, ![512, 256]⟩ : Shape).Idx → EReal) (b2 : (⟨1, ![256]⟩ : Shape).Idx → EReal)
    (bias : (⟨1, ![1]⟩ : Shape).Idx → EReal) (b : Fin 16384) :
    net xv fg sg tw vid vw vb w1 b1 w2 b2 bias (ix1 b) = netRow xv fg sg tw vid vw vb w1 b1 w2 b2 bias b := rfl

end Cert.Net

end
-- ==== Proof.KernelNet.lean ====
/-
  A block's row is a batch row: if row `p` of each row-blocked input block is row `b` of its array, the parameter blocks
  are the parameter arrays, and the three loaded weight slices are rows 0–831, 832–863 and 864–895 of the first layer's
  weights, then what the body stores at row `p` is entry `b` of the whole computation — the three-product first layer
  being the product with the concatenated input.
-/
import proofs.«155336_j45208825757783_2_alg».proof.Proof.KernelRow
import proofs.«155336_j45208825757783_2_alg».proof.Proof.Net

noncomputable section

open scoped BigOperators

namespace Cert.KernelIdeal.Payload

open Cert.KernelIdeal Cert.KernelIdeal.Gen Idealize.ShloMosaic Idealize.ShloMosaic.ValueIdx Cert

theorem body_net (xv fg : (⟨2, ![16384, 26]⟩ : Shape).Idx → EReal) (sg : (⟨3, ![16384, 26, 32]⟩ : Shape).Idx → EReal)
    (tw : (⟨3, ![16384, 20, 32]⟩ : Shape).Idx → EReal) (vid : (⟨2, ![16384, 128]⟩ : Shape).Idx → EReal)
    (vw : (⟨2, ![32, 128]⟩ : Shape).Idx → EReal) (vb : (⟨1, ![32]⟩ : Shape).Idx → EReal) (w1 : (⟨2, ![896, 512]⟩ : Shape).Idx → EReal)
    (b1 : (⟨1, ![512]⟩ : Shape).Idx → EReal) (w2 : (⟨2, ![512, 256]⟩ : Shape).Idx → EReal) (b2 : (⟨1, ![256]⟩ : Shape).Idx → EReal)
    (bias : (⟨1, ![1]⟩ : Shape).Idx → EReal)
    (x0 x1 : FVec Ideal S512x26 .f32) (x2 : FVec Ideal S512x26x32 .bf16)
    (x3 : FVec Ideal S512x20x32 .bf16) (x4 : FVec Ideal S512x128 .f32) (x5 : FVec Ideal S32x128 .bf16)
    (x6 : FVec Ideal S32 .f32) (wa : FVec Ideal S832x512 .bf16) (wb wc : FVec Ideal S32x512 .bf16)
    (x8 : FVec Ideal S512 .f32) (x9 : FVec Ideal S512x256 .bf16) (x10 : FVec Ideal S256 .f32)
    (x11 : FVec Ideal S1 .f32) (b : Fin 16384) (p : Fin 512)
    (h0 : ∀ f, x0 (ix2 p f) = xv (ix2 b f)) (h1 : ∀ f, x1 (ix2 p f) = fg (ix2 b f))
    (h2 : ∀ f e, x2 (ix3 p f e) = sg (ix3 b f e)) (h3 : ∀ l e, x3 (ix3 p l e) = tw (ix3 b l e))
    (h4 : ∀ k, x4 (ix2 p k) = vid (ix2 b k)) (h5 : ∀ e k, x5 (ix2 e k) = vw (ix2 e k))
    (h6 : ∀ e, x6 (ix1 e) = vb (ix1 e))
    (ha : ∀ a k, wa (ix2 a k) = Row.rowsA (fun k j => w1 (ix2 k j)) a k)
    (hb : ∀ a k, wb (ix2 a k) = Row.rowsB (fun k j => w1 (ix2 k j)) a k)
    (hc : ∀ a k, wc (ix2 a k) = Row.rowsC (fun k j => w1 (ix2 k j)) a k)
    (h8 : ∀ k, x8 (ix1 k) = b1 (ix1 k)) (h9 : ∀ k j, x9 (ix2 k j) = w2 (ix2 k j))
    (h10 : ∀ j, x10 (ix1 j) = b2 (ix1 j)) (h11 : x11 (ix1 0) = bias (ix1 0)) :
    k0_pay1 (F := Ideal) (k0_pay2 x0 x1) (k0_pay4 x0 x2) (k0_pay5 x0 x2) (k0_pay6 x3) (k0_pay7 x4 x5 x6) wa wb wc x8 x9
        x10 x11 (ix1 p)
      = Net.netRow xv fg sg tw vid vw vb w1 b1 w2 b2 bias b := by
  refine (body_apply x0 x1 x2 x3 x4 x5 x6 wa wb wc x8 x9 x10 x11 p).trans ?_
  unfold Net.netRow
  rw [← Row.rowOutSplit_eq]
  have e0 : (fun f => x0 (ix2 p f)) = fun f => xv (ix2 b f) := funext h0
  have e1 : (fun f => x1 (ix2 p f)) = fun f => fg (ix2 b f) := funext h1
  have e2 : (fun f e => x2 (ix3 p f e)) = fun f e => sg (ix3 b f e) := funext fun f => funext (h2 f)
  have e3 : (fun l e => x3 (ix3 p l e)) = fun l e => tw (ix3 b l e) := funext fun l => funext (h3 l)
  have e4 : (fun k => x4 (ix2 p k)) = fun k => vid (ix2 b k) := funext h4
  have e5 : (fun e k => x5 (ix2 e k)) = fun e k => vw (ix2 e k) := funext fun e => funext (h5 e)
  have e6 : (fun e => x6 (ix1 e)) = fun e => vb (ix1 e) := funext h6
  have ea : (fun a k => wa (ix2 a k)) = Row.rowsA (fun k j => w1 (ix2 k j)) := funext fun a => funext (ha a)
  have eb : (fun a k => wb (ix2 a k)) = Row.rowsB (fun k j => w1 (ix2 k j)) := funext fun a => funext (hb a)
  have ec : (fun a k => wc (ix2 a k)) = Row.rowsC (fun k j => w1 (ix2 k j)) := funext fun a => funext (hc a)
  have e8 : (fun k => x8 (ix1 k)) = fun k => b1 (ix1 k) := funext h8
  have e9 : (fun k j => x9 (ix2 k j)) = fun k j => w2 (ix2 k j) := funext fun k => funext (h9 k)
  have e10 : (fun j => x10 (ix1 j)) = fun j => b2 (ix1 j) := funext h10
  rw [e0, e1, e2, e3, e4, e5, e6, ea, eb, ec, e8, e9, e10, h11]

end Cert.KernelIdeal.Payload

end
-- ==== Proof.KernelArray.lean ====
/-
  From blocks to the array: the result array after the run.

  The grid has 32 points; at point `t` the row-blocked windows (field weights, the three gathered arrays, the video
  features, and the result) hold rows `512·t … 512·t + 511` of their arrays and the parameter windows hold their whole
  arrays. So what point `t` writes back is rows `512·t …` of the whole computation applied to the arrays as the region
  finds them, the 32 blocks cover the 16384 entries (entry `i` lies in block `i / 512`), and the result array ends
  holding that computation.
-/
import proofs.«155336_j45208825757783_2_alg».proof.Proof.Gen.KernelIdeal.Value
import proofs.«155336_j45208825757783_2_alg».proof.Proof.KernelNet
import Idealize.ShloMosaic.Lib.Pipeline.Value

noncomputable section

open scoped BigOperators

open Idealize.ShloMosaic.Pipeline (Dat)

namespace Cert.KernelIdeal.Whole

open Cert.KernelIdeal Cert.KernelIdeal.Gen Idealize.ShloMosaic Idealize.ShloMosaic.TcCoe Idealize.SL.Sem
open Idealize.ShloMosaic.ValueIdx Cert

variable (m : (ℓ : Loc nD τ sig) → Buf (Elt Ideal) ℓ) (ρ : Dev nD → PrngReg)

theorem hz1 : (![0] : Fin 1 → Nat) = fun _ => 0 := funext fun a => by fin_cases a; rfl

/-- The printed index maps over the grid: a row-blocked window's block index is `(t, 0, …)`, a parameter window's
    is zero (decided over the 32 points). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = t.val :=
  (by decide +kernel : ∀ t : Fin grid0.N, _)

/-- Window 0's block at point `t` read at `y` is its array at the index with row `512·t + y₀` and the other coordinates of `y`. -/
theorem read0 (c : Dev nD) (t : Fin cfg0.N) (y : S512x26.Idx) (i : S16384x26.Idx) (h0 : (i 0).val = t.val * 512 + (y 0).val) (h1 : (i 1).val = (y 1).val) :
    (iblk m c 0 t : FVec Ideal S512x26 .f32) y = (V m c main_arg1 : S16384x26.Idx → EReal) i := by
  unfold iblk
  rw [View.read_apply]
  show (V m c main_arg1 : S16384x26.Idx → EReal) _ = _
  refine congrArg (V m c main_arg1 : S16384x26.Idx → EReal) (funext fun a => Fin.ext ?_)
  match a with
    | ⟨0, _⟩ => show win0_0.index t (0 : Fin 2) * 512 + 1 * (y 0).val = (i 0).val; rw [(idx_facts t).1, h0]; omega
    | ⟨1, _⟩ => show win0_0.index t (1 : Fin 2) * 26 + 1 * (y 1).val = (i 1).val; rw [(idx_facts t).2.1, h1]; omega

/-- Window 1's block at point `t` read at `y` is its array at the index with row `512·t + y₀` and the other coordinates of `y`. -/
theorem read1 (c : Dev nD) (t : Fin cfg0.N) (y : S512x26.Idx) (i : S16384x26.Idx) (h0 : (i 0).val = t.val * 512 + (y 0).val) (h1 : (i 1).val = (y 1).val) :
    (iblk m c 1 t : FVec Ideal S512x26 .f32) y = (V m c main_v17 : S16384x26.Idx → EReal) i := by
  unfold iblk
  rw [View.read_apply]
  show (V m c main_v17 : S16384x26.Idx → EReal) _ = _
  refine congrArg (V m c main_v17 : S16384x26.Idx → EReal) (funext fun a => Fin.ext ?_)
  match a with
    | ⟨0, _⟩ => show win0_1.index t (0 : Fin 2) * 512 + 1 * (y 0).val = (i 0).val; rw [(idx_facts t).2.2.1, h0]; omega
    | ⟨1, _⟩ => show win0_1.index t (1 : Fin 2) * 26 + 1 * (y 1).val = (i 1).val; rw [(idx_facts t).2.2.2.1, h1]; omega

/-- Window 2's block at point `t` read at `y` is its array at the index with row `512·t + y₀` and the other coordinates of `y`. -/
theorem read2 (c : Dev nD) (t : Fin cfg0.N) (y : S512x26x32.Idx) (i : S16384x26x32.Idx) (h0 : (i 0).val = t.val * 512 + (y 0).val) (h1 : (i 1).val = (y 1).val) (h2 : (i 2).val = (y 2).val) :
    (iblk m c 2 t : FVec Ideal S512x26x32 .bf16) y = (V m c main_v33 : S16384x26x32.Idx → EReal) i := by
  unfold iblk
  rw [View.read_apply]
  show (V m c main_v33 : S16384x26x32.Idx → EReal) _ = _
  refine congrArg (V m c main_v33 : S16384x26x32.Idx → EReal) (funext fun a => Fin.ext ?_)
  match a with
    | ⟨0, _⟩ => show win0_2.index t (0 : Fin 3) * 512 + 1 * (y 0).val = (i 0).val; rw [(idx_facts t).2.2.2.2.1, h0]; omega
    | ⟨1, _⟩ => show win0_2.index t (1 : Fin 3) * 26 + 1 * (y 1).val = (i 1).val; rw [(idx_facts t).2.2.2.2.2.1, h1]; omega
    | ⟨2, _⟩ => show win0_2.index t (2 : Fin 3) * 32 + 1 * (y 2).val = (i 2).val; rw [(idx_facts t).2.2.2.2.2.2.1, h2]; omega

/-- Window 3's block at point `t` read at `y` is its array at the index with row `512·t + y₀` and the other coordinates of `y`. -/
theorem read3 (c : Dev nD) (t : Fin cfg0.N) (y : S512x20x32.Idx) (i : S16384x20x32.Idx) (h0 : (i 0).val = t.val * 512 + (y 0).val) (h1 : (i 1).val = (y 1).val) (h2 : (i 2).val = (y 2).val) :
    (iblk m c 3 t : FVec Ideal S512x20x32 .bf16) y = (V m c main_v44 : S16384x20x32.Idx → EReal) i := by
  unfold iblk
  rw [View.read_apply]
  show (V m c main_v44 : S16384x20x32.Idx → EReal) _ = _
  refine congrArg (V m c main_v44 : S16384x20x32.Idx → EReal) (funext fun a => Fin.ext ?_)
  match a with
    | ⟨0, _⟩ => show win0_3.index t (0 : Fin 3) * 512 + 1 * (y 0).val = (i 0).val; rw [(idx_facts t).2.2.2.2.2.2.2.1, h0]; omega
    | ⟨1, _⟩ => show win0_3.index t (1 : Fin 3) * 20 + 1 * (y 1).val = (i 1).val; rw [(idx_facts t).2.2.2.2.2.2.2.2.1, h1]; omega
    | ⟨2, _⟩ => show win0_3.index t (2 : Fin 3) * 32 + 1 * (y 2).val = (i 2).val; rw [(idx_facts t).2.2.2.2.2.2.2.2.2.1, h2]; omega

/-- Window 4's block at point `t` read at `y` is its array at the index with row `512·t + y₀` and the other coordinates of `y`. -/
theorem read4 (c : Dev nD) (t : Fin cfg0.N) (y : S512x128.Idx) (i : S16384x128.Idx) (h0 : (i 0).val = t.val * 512 + (y 0).val) (h1 : (i 1).val = (y 1).val) :
    (iblk m c 4 t : FVec Ideal S512x128 .f32) y = (V m c main_arg2 : S16384x128.Idx → EReal) i := by
  unfold iblk
  rw [View.read_apply]
  show (V m c main_arg2 : S16384x128.Idx → EReal) _ = _
  refine congrArg (V m c main_arg2 : S16384x128.Idx → EReal) (funext fun a => Fin.ext ?_)
  match a with
    | ⟨0, _⟩ => show win0_4.index t (0 : Fin 2) * 512 + 1 * (y 0).val = (i 0).val; rw [(idx_facts t).2.2.2.2.2.2.2.2.2.2.1, h0]; omega
    | ⟨1, _⟩ => show win0_4.index t (1 : Fin 2) * 128 + 1 * (y 1).val = (i 1).val; rw [(idx_facts t).2.2.2.2.2.2.2.2.2.2.2.1, h1]; omega

/-- Window 5's block at point `t` read at `y` is its array at the index with the coordinates of `y`. -/
theorem read5 (c : Dev nD) (t : Fin cfg0.N) (y : S32x128.Idx) (i : S32x128.Idx) (h0 : (i 0).val = (y 0).val) (h1 : (i 1).val = (y 1).val) :
    (iblk m c 5 t : FVec Ideal S32x128 .bf16) y = (V m c main_v45 : S32x128.Idx → EReal) i := by
  unfold iblk
  rw [View.read_apply]
  show (V m c main_v45 : S32x128.Idx → EReal) _ = _
  refine congrArg (V m c main_v45 : S32x128.Idx → EReal) (funext fun a => Fin.ext ?_)
  match a with
    | ⟨0, _⟩ => show win0_5.index t (0 : Fin 2) * 32 + 1 * (y 0).val = (i 0).val; rw [(idx_facts t).2.2.2.2.2.2.2.2.2.2.2.2.1, h0]; omega
    | ⟨1, _⟩ => show win0_5.index t (1 : Fin 2) * 128 + 1 * (y 1).val = (i 1).val; rw [(idx_facts t).2.2.2.2.2.2.2.2.2.2.2.2.2.1, h1]; omega

/-- Window 6's block at point `t` read at `y` is its array at the index with the coordinates of `y`. -/
theorem read6 (c : Dev nD) (t : Fin cfg0.N) (y : S32.Idx) (i : S32.Idx) (h0 : (i 0).val = (y 0).val) :
    (iblk m c 6 t : FVec Ideal S32 .f32) y = (V m c main_arg9 : S32.Idx → EReal) i := by
  unfold iblk
  rw [View.read_apply]
  show (V m c main_arg9 : S32.Idx → EReal) _ = _
  refine congrArg (V m c main_arg9 : S32.Idx → EReal) (funext fun a => Fin.ext ?_)
  match a with
    | ⟨0, _⟩ => show win0_6.index t (0 : Fin 1) * 32 + 1 * (y 0).val = (i 0).val; rw [(idx_facts t).2.2.2.2.2.2.2.2.2.2.2.2.2.2.1, h0]; omega

/-- Window 7's block at point `t` read at `y` is its array at the index with the coordinates of `y`. -/
theorem read7 (c : Dev nD) (t : Fin cfg0.N) (y : S896x512.Idx) (i : S896x512.Idx) (h0 : (i 0).val = (y 0).val) (h1 : (i 1).val = (y 1).val) :
    (iblk m c 7 t : FVec Ideal S896x512 .bf16) y = (V m c main_v46 : S896x512.Idx → EReal) i := by
  unfold iblk
  rw [View.read_apply]
  show (V m c main_v46 : S896x512.Idx → EReal) _ = _
  refine congrArg (V m c main_v46 : S896x512.Idx → EReal) (funext fun a => Fin.ext ?_)
  match a with
    | ⟨0, _⟩ => show win0_7.index t (0 : Fin 2) * 896 + 1 * (y 0).val = (i 0).val; rw [(idx_facts t).2.2.2.2.2.2.2.2.2.2.2.2.2.2.2.1, h0]; omega
    | ⟨1, _⟩ => show win0_7.index t (1 : Fin 2) * 512 + 1 * (y 1).val = (i 1).val; rw [(idx_facts t).2.2.2.2.2.2.2.2.2.2.2.2.2.2.2.2.1, h1]; omega

/-- Window 8's block at point `t` read at `y` is its array at the index with the coordinates of `y`. -/
theorem read8 (c : Dev nD) (t : Fin cfg0.N) (y : S512.Idx) (i : S512.Idx) (h0 : (i 0).val = (y 0).val) :
    (iblk m c 8 t : FVec Ideal S512 .f32) y = (V m c main_arg11 : S512.Idx → EReal) i := by
  unfold iblk
  rw [View.read_apply]
  show (V m c main_arg11 : S512.Idx → EReal) _ = _
  refine congrArg (V m c main_arg11 : S512.Idx → EReal) (funext fun a => Fin.ext ?_)
  match a with
    | ⟨0, _⟩ => show win0_8.index t (0 : Fin 1) * 512 + 1 * (y 0).val = (i 0).val; rw [(idx_facts t).2.2.2.2.2.2.2.2.2.2.2.2.2.2.2.2.2.1, h0]; omega

/-- Window 9's block at point `t` read at `y` is its array at the index with the coordinates of `y`. -/
theorem read9 (c : Dev nD) (t : Fin cfg0.N) (y : S512x256.Idx) (i : S512x256.Idx) (h0 : (i 0).val = (y 0).val) (h1 : (i 1).val = (y 1).val) :
    (iblk m c 9 t : FVec Ideal S512x256 .bf16) y = (V m c main_v47 : S512x256.Idx → EReal) i := by
  unfold iblk
  rw [View.read_apply]
  show (V m c main_v47 : S512x256.Idx → EReal) _ = _
  refine congrArg (V m c main_v47 : S512x256.Idx → EReal) (funext fun a => Fin.ext ?_)
  match a with
    | ⟨0, _⟩ => show win0_9.index t (0 : Fin 2) * 512 + 1 * (y 0).val = (i 0).val; rw [(idx_facts t).2.2.2.2.2.2.2.2.2.2.2.2.2.2.2.2.2.2.1, h0]; omega
    | ⟨1, _⟩ => show win0_9.index t (1 : Fin 2) * 256 + 1 * (y 1).val = (i 1).val; rw [(idx_facts t).2.2.2.2.2.2.2.2.2.2.2.2.2.2.2.2.2.2.2.1, h1]; omega

/-- Window 10's block at point `t` read at `y` is its array at the index with the coordinates of `y`. -/
theorem read10 (c : Dev nD) (t : Fin cfg0.N) (y : S256.Idx) (i : S256.Idx) (h0 : (i 0).val = (y 0).val) :
    (iblk m c 10 t : FVec Ideal S256 .f32) y = (V m c main_arg13 : S256.Idx → EReal) i := by
  unfold iblk
  rw [View.read_apply]
  show (V m c main_arg13 : S256.Idx → EReal) _ = _
  refine congrArg (V m c main_arg13 : S256.Idx → EReal) (funext fun a => Fin.ext ?_)
  match a with
    | ⟨0, _⟩ => show win0_10.index t (0 : Fin 1) * 256 + 1 * (y 0).val = (i 0).val; rw [(idx_facts t).2.2.2.2.2.2.2.2.2.2.2.2.2.2.2.2.2.2.2.2.1, h0]; omega

/-- Window 11's block at point `t` read at `y` is its array at the index with the coordinates of `y`. -/
theorem read11 (c : Dev nD) (t : Fin cfg0.N) (y : S1.Idx) (i : S1.Idx) (h0 : (i 0).val = (y 0).val) :
    (iblk m c 11 t : FVec Ideal S1 .f32) y = (V m c main_arg14 : S1.Idx → EReal) i := by
  unfold iblk
  rw [View.read_apply]
  show (V m c main_arg14 : S1.Idx → EReal) _ = _
  refine congrArg (V m c main_arg14 : S1.Idx → EReal) (funext fun a => Fin.ext ?_)
  match a with
    | ⟨0, _⟩ => show win0_11.index t (0 : Fin 1) * 1 + 1 * (y 0).val = (i 0).val; rw [(idx_facts t).2.2.2.2.2.2.2.2.2.2.2.2.2.2.2.2.2.2.2.2.2.1, h0]; omega

/-- The whole computation applied to the arrays as the region finds them. -/
def Gk (c : Dev nD) : S16384.Idx → EReal := Net.net (V m c main_arg1) (V m c main_v17) (V m c main_v33) (V m c main_v44) (V m c main_arg2) (V m c main_v45) (V m c main_arg9) (V m c main_v46) (V m c main_arg11) (V m c main_v47) (V m c main_arg13) (V m c main_arg14)

/-! Each load of the body, read at an index: the window's array (or, for the three weight slices, the matching row
    stretch of the weights) at the batch row `b = 512·t + p`. -/

theorem ld0 (c : Dev nD) (t : Fin cfg0.N) (p : Fin 512) (f : Fin 26) (b : Fin 16384) (hb : b.val = t.val * 512 + p.val) :
    (View.ld (iblk m c 0 t) r0_0 : FVec Ideal S512x26 .f32) (ix2 p f) = (V m c main_arg1 : S16384x26.Idx → EReal) (ix2 b f) :=
  read0 m c t _ _ (by show b.val = t.val * 512 + (0 + 1 * p.val); omega) (by show f.val = 0 + 1 * f.val; omega)

theorem ld1 (c : Dev nD) (t : Fin cfg0.N) (p : Fin 512) (f : Fin 26) (b : Fin 16384) (hb : b.val = t.val * 512 + p.val) :
    (View.ld (iblk m c 1 t) r0_0 : FVec Ideal S512x26 .f32) (ix2 p f) = (V m c main_v17 : S16384x26.Idx → EReal) (ix2 b f) :=
  read1 m c t _ _ (by show b.val = t.val * 512 + (0 + 1 * p.val); omega) (by show f.val = 0 + 1 * f.val; omega)

theorem ld2 (c : Dev nD) (t : Fin cfg0.N) (p : Fin 512) (f : Fin 26) (e : Fin 32) (b : Fin 16384) (hb : b.val = t.val * 512 + p.val) :
    (View.ld (iblk m c 2 t) r0_1 : FVec Ideal S512x26x32 .bf16) (ix3 p f e) = (V m c main_v33 : S16384x26x32.Idx → EReal) (ix3 b f e) :=
  read2 m c t _ _ (by show b.val = t.val * 512 + (0 + 1 * p.val); omega) (by show f.val = 0 + 1 * f.val; omega) (by show e.val = 0 + 1 * e.val; omega)

theorem ld3 (c : Dev nD) (t : Fin cfg0.N) (p : Fin 512) (l : Fin 20) (e : Fin 32) (b : Fin 16384) (hb : b.val = t.val * 512 + p.val) :
    (View.ld (iblk m c 3 t) r0_2 : FVec Ideal S512x20x32 .bf16) (ix3 p l e) = (V m c main_v44 : S16384x20x32.Idx → EReal) (ix3 b l e) :=
  read3 m c t _ _ (by show b.val = t.val * 512 + (0 + 1 * p.val); omega) (by show l.val = 0 + 1 * l.val; omega) (by show e.val = 0 + 1 * e.val; omega)

theorem ld4 (c : Dev nD) (t : Fin cfg0.N) (p : Fin 512) (k : Fin 128) (b : Fin 16384) (hb : b.val = t.val * 512 + p.val) :
    (View.ld (iblk m c 4 t) r0_3 : FVec Ideal S512x128 .f32) (ix2 p k) = (V m c main_arg2 : S16384x128.Idx → EReal) (ix2 b k) :=
  read4 m c t _ _ (by show b.val = t.val * 512 + (0 + 1 * p.val); omega) (by show k.val = 0 + 1 * k.val; omega)

theorem ld5 (c : Dev nD) (t : Fin cfg0.N) (e : Fin 32) (k : Fin 128) :
    (View.ld (iblk m c 5 t) r0_4 : FVec Ideal S32x128 .bf16) (ix2 e k) = (V m c main_v45 : S32x128.Idx → EReal) (ix2 e k) :=
  read5 m c t _ _ (by show e.val = 0 + 1 * e.val; omega) (by show k.val = 0 + 1 * k.val; omega)

theorem ld6 (c : Dev nD) (t : Fin cfg0.N) (e : Fin 32) :
    (View.ld (iblk m c 6 t) r0_5 : FVec Ideal S32 .f32) (ix1 e) = (V m c main_arg9 : S32.Idx → EReal) (ix1 e) :=
  read6 m c t _ _ (by show e.val = 0 + 1 * e.val; omega)

theorem ld7a (c : Dev nD) (t : Fin cfg0.N) (a : Fin 832) (k : Fin 512) :
    (View.ld (iblk m c 7 t) r0_6 : FVec Ideal S832x512 .bf16) (ix2 a k) = Row.rowsA (fun k j => (V m c main_v46 : S896x512.Idx → EReal) (ix2 k j)) a k :=
  read7 m c t _ _ (by show a.val = 0 + 1 * a.val; omega) (by show k.val = 0 + 1 * k.val; omega)

theorem ld7b (c : Dev nD) (t : Fin cfg0.N) (a : Fin 32) (k : Fin 512) :
    (View.ld (iblk m c 7 t) r0_7 : FVec Ideal S32x512 .bf16) (ix2 a k) = Row.rowsB (fun k j => (V m c main_v46 : S896x512.Idx → EReal) (ix2 k j)) a k :=
  read7 m c t _ _ (by show 832 + a.val = 832 + 1 * a.val; omega) (by show k.val = 0 + 1 * k.val; omega)

theorem ld7c (c : Dev nD) (t : Fin cfg0.N) (a : Fin 32) (k : Fin 512) :
    (View.ld (iblk m c 7 t) r0_8 : FVec Ideal S32x512 .bf16) (ix2 a k) = Row.rowsC (fun k j => (V m c main_v46 : S896x512.Idx → EReal) (ix2 k j)) a k :=
  read7 m c t _ _ (by show 864 + a.val = 864 + 1 * a.val; omega) (by show k.val = 0 + 1 * k.val; omega)

theorem ld8 (c : Dev nD) (t : Fin cfg0.N) (k : Fin 512) :
    (View.ld (iblk m c 8 t) r0_9 : FVec Ideal S512 .f32) (ix1 k) = (V m c main_arg11 : S512.Idx → EReal) (ix1 k) :=
  read8 m c t _ _ (by show k.val = 0 + 1 * k.val; omega)

theorem ld9 (c : Dev nD) (t : Fin cfg0.N) (k : Fin 512) (q : Fin 256) :
    (View.ld (iblk m c 9 t) r0_10 : FVec Ideal S512x256 .bf16) (ix2 k q) = (V m c main_v47 : S512x256.Idx → EReal) (ix2 k q) :=
  read9 m c t _ _ (by show k.val = 0 + 1 * k.val; omega) (by show q.val = 0 + 1 * q.val; omega)

theorem ld10 (c : Dev nD) (t : Fin cfg0.N) (q : Fin 256) :
    (View.ld (iblk m c 10 t) r0_11 : FVec Ideal S256 .f32) (ix1 q) = (V m c main_arg13 : S256.Idx → EReal) (ix1 q) :=
  read10 m c t _ _ (by show q.val = 0 + 1 * q.val; omega)

theorem ld11 (c : Dev nD) (t : Fin cfg0.N)  :
    (View.ld (iblk m c 11 t) r0_12 : FVec Ideal S1 .f32) (ix1 (0 : Fin 1)) = (V m c main_arg14 : S1.Idx → EReal) (ix1 (0 : Fin 1)) :=
  read11 m c t _ _ (by show (0 : Fin 1).val = 0 + 1 * (0 : Fin 1).val; omega)

/-- What the body leaves at row `p` of the result block at point `t` is entry `b = 512·t + p` of the whole
    computation. -/
theorem out_at (c : Dev nD) (t : Fin cfg0.N) (p : Fin 512) (b : Fin 16384) (hb : b.val = t.val * 512 + p.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix1 p) = Gk m c (ix1 b) := by
  unfold out0_12
  rw [View.canon_unit_zero hz1]
  unfold Gk
  rw [Net.net_ix1]
  exact Payload.body_net _ _ _ _ _ _ _ _ _ _ _ _ (View.ld (iblk m c 0 t) r0_0) (View.ld (iblk m c 1 t) r0_0) (View.ld (iblk m c 2 t) r0_1) (View.ld (iblk m c 3 t) r0_2)
    (View.ld (iblk m c 4 t) r0_3) (View.ld (iblk m c 5 t) r0_4) (View.ld (iblk m c 6 t) r0_5) (View.ld (iblk m c 7 t) r0_6) (View.ld (iblk m c 7 t) r0_7) (View.ld (iblk m c 7 t) r0_8)
    (View.ld (iblk m c 8 t) r0_9) (View.ld (iblk m c 9 t) r0_10) (View.ld (iblk m c 10 t) r0_11) (View.ld (iblk m c 11 t) r0_12) b p
    (fun f => ld0 m c t p f b hb) (fun f => ld1 m c t p f b hb) (fun f e => ld2 m c t p f e b hb)
    (fun l e => ld3 m c t p l e b hb) (fun k => ld4 m c t p k b hb) (fun e k => ld5 m c t e k) (fun e => ld6 m c t e)
    (fun a k => ld7a m c t a k) (fun a k => ld7b m c t a k) (fun a k => ld7c m c t a k) (fun k => ld8 m c t k)
    (fun k q => ld9 m c t k q) (fun q => ld10 m c t q) (ld11 m c t)

/-- What point `t` writes back is block `t` of the whole computation. -/
theorem flushed_eq (c : Dev nD) (t : Fin cfg0.N) :
    (dats m 0 c).flushed 12 t = ((cfg0.win 12).blk t).view.read (Elt Ideal) (Gk m c) := by
  rw [Cert.KernelIdeal.Value.flushed12]
  funext j
  have hN : cfg0.N = 32 := N_0
  have ht := t.isLt
  have hj : (j 0).val < 512 := (j 0).isLt
  have hbv : t.val * 512 + (j 0).val < 16384 := by omega
  have hx : (cfg0.win 12).xinj (grid0.coords t) j = ix1 (⟨(j 0).val, hj⟩ : Fin 512) :=
    funext fun a => Fin.ext (by match a with | ⟨0, _⟩ => rfl)
  have he : ((cfg0.win 12).blk t).view.emb j = ix1 (⟨t.val * 512 + (j 0).val, hbv⟩ : Fin 16384) :=
    funext fun a => Fin.ext (by
      match a with
      | ⟨0, _⟩ => show win0_12.index t (0 : Fin 1) * 512 + 1 * (j 0).val = t.val * 512 + (j 0).val; rw [(idx_facts t).2.2.2.2.2.2.2.2.2.2.2.2.2.2.2.2.2.2.2.2.2.2]; omega)
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((cfg0.win 12).xinj (grid0.coords t) j)
      = Gk m c (((cfg0.win 12).blk t).view.emb j)
  rw [hx, he]
  exact out_at m c t ⟨(j 0).val, hj⟩ ⟨t.val * 512 + (j 0).val, hbv⟩ rfl

/-- An index of the array is in point `t`'s block iff its coordinate is in the block's range. -/
theorem mem_blk (t : Fin cfg0.N) (i : S16384.Idx) :
    i ∈ ((cfg0.win 12).blk t).view.set ↔ ∀ a : Fin 1, win0_12.index t a * S512.size a ≤ (i a).val ∧ (i a).val < win0_12.index t a * S512.size a + S512.size a := by
  show i ∈ ((View.whole main_v48).slice (win0_12.rect t)).set ↔ _
  rw [View.set_slice_whole, Rect.mem_set_unit]
  exact Iff.rfl

/-- Every entry of the result lies in some point's block: entry `i` in block `i / 512`. -/
theorem cover (i : S16384.Idx) :
    ∃ t : Fin cfg0.N, (cfg0.win 12).flush t = true ∧ i ∈ ((cfg0.win 12).blk t).view.set := by
  have hN : cfg0.N = 32 := N_0
  have hi : (i 0).val < 16384 := (i 0).isLt
  refine ⟨⟨(i 0).val / 512, by rw [hN]; omega⟩, flush0_12 _, ?_⟩
  rw [mem_blk]
  intro a
  match a with
  | ⟨0, _⟩ =>
    show win0_12.index ⟨(i 0).val / 512, _⟩ (0 : Fin 1) * 512 ≤ (i 0).val
      ∧ (i 0).val < win0_12.index ⟨(i 0).val / 512, _⟩ (0 : Fin 1) * 512 + 512
    rw [(idx_facts ⟨(i 0).val / 512, by rw [hN]; omega⟩).2.2.2.2.2.2.2.2.2.2.2.2.2.2.2.2.2.2.2.2.2.2]
    show (i 0).val / 512 * 512 ≤ (i 0).val ∧ (i 0).val < (i 0).val / 512 * 512 + 512
    omega

/-- The result array after the run is the whole computation applied to the arrays as the region finds them. -/
theorem final (c : Dev nD) : (dats m 0 c).arrAt 12 cfg0.N = Gk m c :=
  (dats m 0 c).arrAt_eq_of_cover 12 (Gk m c) (fun t _ => flushed_eq m c t) (cover)

end Cert.KernelIdeal.Whole

end
-- ==== Proof.HostPrefix.lean ====
/-
  The arrays the host operations write before the region, as functions of the arguments.

  Both programs normalise the integer indices in the same way (a negative index has the axis length added) and apply
  the same three gathers: first-order entries `first_tables[f, idx]`, second-order rows `second_tables[f, idx, :]`, and
  title rows `title_table[title_idx, :]`, the last multiplied by the title weights. So each gathered array the region
  finds is the reference's stage of the same arguments — the two are the same composition of the same operations, and
  the gathers are never opened. The three parameter arrays the host re-formats are the arguments themselves: a change
  of float format is the identity on the extended reals.
-/
import proofs.«155336_j45208825757783_2_alg».proof.Proof.Gen.KernelIdeal.Frame
import proofs.«155336_j45208825757783_2_alg».proof.Proof.Gen.ReferenceIdeal.Read
import Idealize.ShloMosaic.Lib.StableHlo.Run

noncomputable section

open scoped BigOperators

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gathered first-order entries. -/
theorem V_v17 (c : Dev nD) :
    (V m c main_v17 : S16384x26.Idx → EReal)
      = Cert.ReferenceIdeal.Read.val_main_v17 (F := Ideal) (m ((c : Thread nD τ).loc main_arg0)) (m ((c : Thread nD τ).loc main_arg5)) := by
  dsimp only [V, hostOps0]
  after_results_simp
  rfl

/-- The gathered second-order embeddings. -/
theorem V_v33 (c : Dev nD) :
    (V m c main_v33 : S16384x26x32.Idx → EReal)
      = Cert.ReferenceIdeal.Read.val_main_v33 (F := Ideal) (m ((c : Thread nD τ).loc main_arg0)) (m ((c : Thread nD τ).loc main_arg6)) := by
  dsimp only [V, hostOps0]
  after_results_simp
  rfl

/-- The gathered and weighted title rows. -/
theorem V_v44 (c : Dev nD) :
    (V m c main_v44 : S16384x20x32.Idx → EReal)
      = Cert.ReferenceIdeal.Read.val_main_v53 (F := Ideal) (m ((c : Thread nD τ).loc main_arg3)) (m ((c : Thread nD τ).loc main_arg4)) (m ((c : Thread nD τ).loc main_arg7)) := by
  dsimp only [V, hostOps0]
  after_results_simp
  rfl

/-- The video projection's weights. -/
theorem V_v45 (c : Dev nD) : (V m c main_v45 : S32x128.Idx → EReal) = (m ((c : Thread nD τ).loc main_arg8)) := by
  dsimp only [V, hostOps0]
  after_results_simp
  rfl

/-- The first layer's weights. -/
theorem V_v46 (c : Dev nD) : (V m c main_v46 : S896x512.Idx → EReal) = (m ((c : Thread nD τ).loc main_arg10)) := by
  dsimp only [V, hostOps0]
  after_results_simp
  rfl

/-- The second layer's weights. -/
theorem V_v47 (c : Dev nD) : (V m c main_v47 : S512x256.Idx → EReal) = (m ((c : Thread nD τ).loc main_arg12)) := by
  dsimp only [V, hostOps0]
  after_results_simp
  rfl

end Cert.KernelIdeal.HostPrefix

end
-- ==== Proof.KernelRun.lean ====
/-
  The kernel program's run, read: every weakly fair execution ends with the result array holding the whole computation
  of the launch contents of the arguments — the gathered arrays being the host operations' values of the index and
  table arguments, the re-formatted parameters the arguments themselves — and the arguments unchanged.
-/
import proofs.«155336_j45208825757783_2_alg».proof.Proof.KernelArray
import proofs.«155336_j45208825757783_2_alg».proof.Proof.HostPrefix

noncomputable section

open scoped BigOperators

namespace Cert.KernelIdeal.Whole

open Cert.KernelIdeal Cert.KernelIdeal.Gen Idealize.ShloMosaic Idealize.ShloMosaic.TcCoe Idealize.SL.Sem Cert

variable (m : (ℓ : Loc nD τ sig) → Buf (Elt Ideal) ℓ) (ρ : Dev nD → PrngReg)

/-- The whole computation of the arguments' launch contents. -/
def result (c : Dev nD) : S16384.Idx → EReal :=
  Net.net (m ((c : Thread nD τ).loc main_arg1))
    (Cert.ReferenceIdeal.Read.val_main_v17 (F := Ideal) (m ((c : Thread nD τ).loc main_arg0)) (m ((c : Thread nD τ).loc main_arg5)))
    (Cert.ReferenceIdeal.Read.val_main_v33 (F := Ideal) (m ((c : Thread nD τ).loc main_arg0)) (m ((c : Thread nD τ).loc main_arg6)))
    (Cert.ReferenceIdeal.Read.val_main_v53 (F := Ideal) (m ((c : Thread nD τ).loc main_arg3)) (m ((c : Thread nD τ).loc main_arg4)) (m ((c : Thread nD τ).loc main_arg7)))
    (m ((c : Thread nD τ).loc main_arg2)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The result array after the run. -/
theorem final_args (c : Dev nD) : (dats m 0 c).arrAt 12 cfg0.N = result m c := by
  rw [final]
  unfold Gk result
  rw [V_main_arg1, HostPrefix.V_v17, HostPrefix.V_v33, HostPrefix.V_v44, V_main_arg2, HostPrefix.V_v45, V_main_arg9,
    HostPrefix.V_v46, V_main_arg11, HostPrefix.V_v47, V_main_arg13, V_main_arg14]

/-- The run, read. -/
theorem run : θ_run defs (onTc (τ := τ) (main (F := Ideal))) ⟨m, fun _ => 0, ρ⟩ fun r => ∀ c : Dev nD,
      r.2.mem ((c : Thread nD τ).loc main_v48) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_args m c), (h c).2⟩)
    (Cert.KernelIdeal.Value.run_blocks m ρ)

end Cert.KernelIdeal.Whole

end
-- ==== Proof.RefParts.lean ====
/-
  The reference's intermediate arrays, each read at one index, as the row function's pieces of batch row `b`.

  The reference multiplies the gathered second-order rows by the field weights broadcast along the embedding axis, sums
  over the field axis (and the squares likewise), takes half of square-of-sum minus sum-of-squares, sums the weighted
  title rows over the title axis, and projects the video features. Each host sum starts from the constant zero, whose
  value is `0`, so it is the plain sum. The two gathered arrays and the weighted title rows are kept as they are: the
  kernel's program computes the very same arrays.
-/
import proofs.«155336_j45208825757783_2_alg».proof.Proof.Gen.ReferenceIdeal.Read
import proofs.«155336_j45208825757783_2_alg».proof.Proof.Net
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx Cert

variable (x0 : (⟨S16384x26x1, .i32⟩ : BufTy).Contents (Elt Ideal)) (x1 : (⟨S16384x26, .f32⟩ : BufTy).Contents (Elt Ideal)) (x2 : (⟨S16384x128, .f32⟩ : BufTy).Contents (Elt Ideal)) (x3 : (⟨S16384x20, .i32⟩ : BufTy).Contents (Elt Ideal)) (x4 : (⟨S16384x20, .f32⟩ : BufTy).Contents (Elt Ideal)) (x5 : (⟨S26x100000, .f32⟩ : BufTy).Contents (Elt Ideal)) (x6 : (⟨S26x100000x32, .f32⟩ : BufTy).Contents (Elt Ideal)) (x7 : (⟨S50000x32, .f32⟩ : BufTy).Contents (Elt Ideal)) (x8 : (⟨S32x128, .f32⟩ : BufTy).Contents (Elt Ideal)) (x9 : (⟨S32, .f32⟩ : BufTy).Contents (Elt Ideal)) (x10 : (⟨S896x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (x14 : (⟨S1, .f32⟩ : BufTy).Contents (Elt Ideal))

/-- Two indices of a rank-2 shape with the same coordinates are equal. -/
local macro "idx2" : tactic =>
  `(tactic| exact funext fun a => Fin.ext (by match a with | ⟨0, _⟩ => rfl | ⟨1, _⟩ => rfl))
/-- Two indices of a rank-3 shape with the same coordinates are equal. -/
local macro "idx3" : tactic =>
  `(tactic| exact funext fun a => Fin.ext (by match a with | ⟨0, _⟩ => rfl | ⟨1, _⟩ => rfl | ⟨2, _⟩ => rfl))
/-- Two indices of a rank-1 shape with the same coordinate are equal. -/
local macro "idx1" : tactic =>
  `(tactic| exact funext fun a => Fin.ext (by match a with | ⟨0, _⟩ => rfl))

/-- The scaled embedding at `(b, f, e)`. -/
theorem emb_apply (b : Fin 16384) (f : Fin 26) (e : Fin 32) :
    val_main_v36 (F := Ideal) x0 x1 x6 (ix3 b f e) = (Row.emb (fun f => x1 (ix2 b f)) (fun f e => val_main_v33 (F := Ideal) x0 x6 (ix3 b f e))) f e := by
  rw [val_main_v36_apply, val_main_v35_apply, val_main_v34_apply]
  rw [show idx_main_v34 (idx_main_v35 (ix3 b f e)) = ix2 b f from by idx2]
  rfl

/-- The first-order sum at `b`. -/
theorem first_apply (b : Fin 16384) :
    val_main_v72 (F := Ideal) x0 x1 x5 (ix1 b)
      = Row.fmFirst (fun f => x1 (ix2 b f)) (fun f => val_main_v17 (F := Ideal) x0 x5 (ix2 b f)) := by
  rw [val_main_v72_apply]
  unfold Row.fmFirst
  rw [show (val_main_cst_12 (F := Ideal)) (Shape.Idx.first h_S_) = 0 from Ideal.ofBits_zero_f32, zero_add]
  refine Finset.sum_congr rfl fun k _ => ?_
  rw [show idx_main_v72 (ix1 b) k = ix2 b k from by idx2]
  rfl

/-- The sum of the scaled embeddings over the fields, at `(b, e)`. -/
theorem sumEmb_apply (b : Fin 16384) (e : Fin 32) :
    val_main_v37 (F := Ideal) x0 x1 x6 (ix2 b e) = ∑ f, (Row.emb (fun f => x1 (ix2 b f)) (fun f e => val_main_v33 (F := Ideal) x0 x6 (ix3 b f e))) f e := by
  rw [val_main_v37_apply]
  rw [show (val_main_cst (F := Ideal)) (Shape.Idx.first h_S_) = 0 from Ideal.ofBits_zero_f32, zero_add]
  refine Finset.sum_congr rfl fun k _ => ?_
  rw [show idx_main_v37 (ix2 b e) k = ix3 b k e from by idx3]
  exact emb_apply x0 x1 x6 b k e

/-- The sum of their squares over the fields, at `(b, e)`. -/
theorem sqSum_apply (b : Fin 16384) (e : Fin 32) :
    val_main_v40 (F := Ideal) x0 x1 x6 (ix2 b e) = ∑ f, (Row.emb (fun f => x1 (ix2 b f)) (fun f e => val_main_v33 (F := Ideal) x0 x6 (ix3 b f e))) f e * (Row.emb (fun f => x1 (ix2 b f)) (fun f e => val_main_v33 (F := Ideal) x0 x6 (ix3 b f e))) f e := by
  rw [val_main_v40_apply]
  rw [show (val_main_cst_7 (F := Ideal)) (Shape.Idx.first h_S_) = 0 from Ideal.ofBits_zero_f32, zero_add]
  refine Finset.sum_congr rfl fun k _ => ?_
  rw [show idx_main_v40 (ix2 b e) k = ix3 b k e from by idx3, val_main_v39_apply, emb_apply]
  rfl

/-- The second-order term at `b`. -/
theorem second_apply (b : Fin 16384) :
    val_main_v73 (F := Ideal) x0 x1 x6 (ix1 b) = Row.fmSecond Net.half (Row.emb (fun f => x1 (ix2 b f)) (fun f e => val_main_v33 (F := Ideal) x0 x6 (ix3 b f e))) := by
  rw [val_main_v73_apply]
  unfold Row.fmSecond
  rw [show (val_main_cst_13 (F := Ideal)) (Shape.Idx.first h_S_) = 0 from Ideal.ofBits_zero_f32, zero_add]
  refine Finset.sum_congr rfl fun k _ => ?_
  rw [show idx_main_v73 (ix1 b) k = ix2 b k from by idx2]
  rw [val_main_v43_apply, val_main_v42_apply, val_main_v41_apply, val_main_v38_apply, sumEmb_apply, sqSum_apply]
  rfl

/-- The title embedding at `(b, e)`. -/
theorem title_apply (b : Fin 16384) (e : Fin 32) :
    val_main_v54 (F := Ideal) x3 x4 x7 (ix2 b e)
      = Row.titleEmb (fun l e => val_main_v53 (F := Ideal) x3 x4 x7 (ix3 b l e)) e := by
  rw [val_main_v54_apply]
  unfold Row.titleEmb
  rw [show (val_main_cst_11 (F := Ideal)) (Shape.Idx.first h_S_) = 0 from Ideal.ofBits_zero_f32, zero_add]
  refine Finset.sum_congr rfl fun k _ => ?_
  rw [show idx_main_v54 (ix2 b e) k = ix3 b k e from by idx3]

/-- The video projection at `(b, e)`. -/
theorem video_apply (b : Fin 16384) (e : Fin 32) :
    val_main_v59 (F := Ideal) x2 x8 x9 (ix2 b e)
      = Row.videoEmb (fun k => x2 (ix2 b k)) (fun e k => x8 (ix2 e k)) (fun e => x9 (ix1 e)) e := by
  rw [val_main_v59_apply, val_main_v56_apply, val_main_v58_apply, val_main_v57_apply]
  unfold Row.videoEmb
  rw [show idx_main_v57 (idx_main_v58 (ix2 b e)) = ix1 e from by idx1]
  refine congrArg (· + x9 (ix1 e)) (Finset.sum_congr rfl fun k _ => ?_)
  rw [val_main_v55_apply]
  rw [show lidx_main_v56 (ix2 b e) k = ix2 b k from by idx2,
    show idx_main_v55 (ridx_main_v56 (ix2 b e) k) = ix2 e k from by idx2]

end Cert.ReferenceIdeal.Rows

end
-- ==== Proof.RefDeep.lean ====
/-
  The reference's deep input read at `(b, k)`: the concatenation, along the feature axis, of the flattened scaled
  embeddings (columns 0–831: field `k / 32`, coordinate `k % 32`), the title embedding (columns 832–863) and the video
  projection (columns 864–895). A column's piece is the one whose span of the axis holds it.
-/
import proofs.«155336_j45208825757783_2_alg».proof.Proof.RefParts
import Idealize.ShloMosaic.Lib.Pipeline.Value

noncomputable section

open scoped BigOperators

namespace Cert.ReferenceIdeal.Rows

open Cert.ReferenceIdeal Cert.ReferenceIdeal.Gen Cert.ReferenceIdeal.Read Idealize.ShloMosaic Idealize.ShloMosaic.ValueIdx Cert

variable (x0 : (⟨S16384x26x1, .i32⟩ : BufTy).Contents (Elt Ideal)) (x1 : (⟨S16384x26, .f32⟩ : BufTy).Contents (Elt Ideal)) (x2 : (⟨S16384x128, .f32⟩ : BufTy).Contents (Elt Ideal)) (x3 : (⟨S16384x20, .i32⟩ : BufTy).Contents (Elt Ideal)) (x4 : (⟨S16384x20, .f32⟩ : BufTy).Contents (Elt Ideal)) (x5 : (⟨S26x100000, .f32⟩ : BufTy).Contents (Elt Ideal)) (x6 : (⟨S26x100000x32, .f32⟩ : BufTy).Contents (Elt Ideal)) (x7 : (⟨S50000x32, .f32⟩ : BufTy).Contents (Elt Ideal)) (x8 : (⟨S32x128, .f32⟩ : BufTy).Contents (Elt Ideal)) (x9 : (⟨S32, .f32⟩ : BufTy).Contents (Elt Ideal)) (x10 : (⟨S896x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (x14 : (⟨S1, .f32⟩ : BufTy).Contents (Elt Ideal))

/-- Two indices of a rank-2 shape with the same coordinates are equal. -/
local macro "idx2" : tactic =>
  `(tactic| exact funext fun a => Fin.ext (by match a with | ⟨0, _⟩ => rfl | ⟨1, _⟩ => rfl))
/-- Two indices of a rank-3 shape with the same coordinates are equal. -/
local macro "idx3" : tactic =>
  `(tactic| exact funext fun a => Fin.ext (by match a with | ⟨0, _⟩ => rfl | ⟨1, _⟩ => rfl | ⟨2, _⟩ => rfl))
/-- Two indices of a rank-1 shape with the same coordinate are equal. -/
local macro "idx1" : tactic =>
  `(tactic| exact funext fun a => Fin.ext (by match a with | ⟨0, _⟩ => rfl))

/-- The flattened scaled embeddings at `(b, k)`. -/
theorem flat_apply (b : Fin 16384) (k : Fin 832) :
    val_main_v60 (F := Ideal) x0 x1 x6 (ix2 b k) = Row.flat (Row.emb (fun f => x1 (ix2 b f)) (fun f e => val_main_v33 (F := Ideal) x0 x6 (ix3 b f e))) k := by
  have hk := k.isLt
  have hb := b.isLt
  rw [val_main_v60_apply]
  unfold Row.flat
  rw [show idx_main_v60 (ix2 b k) = ix3 b (⟨k.val / 32, by omega⟩ : Fin 26) (⟨k.val % 32, by omega⟩ : Fin 32) from
    funext fun a => Fin.ext (by
      match a with
      | ⟨0, _⟩ => show (b.val * 832 + k.val) / 832 = b.val; omega
      | ⟨1, _⟩ => show (b.val * 832 + k.val) / 32 % 26 = k.val / 32; omega
      | ⟨2, _⟩ => show (b.val * 832 + k.val) % 32 = k.val % 32; omega)]
  exact emb_apply x0 x1 x6 b _ _

/-- The deep input at `(b, k)`. -/
theorem deep_apply (b : Fin 16384) (k : Fin 896) :
    val_main_v61 (F := Ideal) x0 x1 x2 x3 x4 x6 x7 x8 x9 (ix2 b k) = Row.deep (Row.emb (fun f => x1 (ix2 b f)) (fun f e => val_main_v33 (F := Ideal) x0 x6 (ix3 b f e))) (Row.titleEmb (fun l e => val_main_v53 (F := Ideal) x3 x4 x7 (ix3 b l e))) (Row.videoEmb (fun k => x2 (ix2 b k)) (fun e k => x8 (ix2 e k)) (fun e => x9 (ix1 e))) k := by
  have hk := k.isLt
  unfold val_main_v61 Row.deep
  by_cases h1 : k.val < 832
  · rw [dif_pos h1]
    refine (concatenate_apply_piece (t := S16384x896) (1 : Fin 2) ([⟨S16384x832, val_main_v60 (F := Ideal) x0 x1 x6⟩, ⟨S16384x32, val_main_v54 (F := Ideal) x3 x4 x7⟩,
        ⟨S16384x32, val_main_v59 (F := Ideal) x2 x8 x9⟩] : List ((s : Shape) × (s.Idx → EReal)))
      concatenates_S16384x832_S16384x32_S16384x32_S16384x896_d1 (ix2 b k) 0
      (by show 0 < 3; omega) S16384x832 (val_main_v60 (F := Ideal) x0 x1 x6) rfl rfl 0 rfl (ix2 b (⟨k.val, h1⟩ : Fin 832))
      (fun bx hne => by
        match bx with
        | ⟨0, _⟩ => rfl
        | ⟨1, _⟩ => exact absurd rfl hne)
      (by show 0 + k.val = k.val; omega)).trans ?_
    exact flat_apply x0 x1 x6 b ⟨k.val, h1⟩
  · rw [dif_neg h1]
    by_cases h2 : k.val < 864
    · rw [dif_pos h2]
      refine (concatenate_apply_piece (t := S16384x896) (1 : Fin 2) ([⟨S16384x832, val_main_v60 (F := Ideal) x0 x1 x6⟩, ⟨S16384x32, val_main_v54 (F := Ideal) x3 x4 x7⟩,
        ⟨S16384x32, val_main_v59 (F := Ideal) x2 x8 x9⟩] : List ((s : Shape) × (s.Idx → EReal)))
        concatenates_S16384x832_S16384x32_S16384x32_S16384x896_d1 (ix2 b k) 1
        (by show 1 < 3; omega) S16384x32 (val_main_v54 (F := Ideal) x3 x4 x7) rfl rfl 832 rfl
        (ix2 b (⟨k.val - 832, by omega⟩ : Fin 32))
        (fun bx hne => by
          match bx with
          | ⟨0, _⟩ => rfl
          | ⟨1, _⟩ => exact absurd rfl hne)
        (by show 832 + (k.val - 832) = k.val; omega)).trans ?_
      exact title_apply x3 x4 x7 b _
    · rw [dif_neg h2]
      refine (concatenate_apply_piece (t := S16384x896) (1 : Fin 2) ([⟨S16384x832, val_main_v60 (F := Ideal) x0 x1 x6⟩, ⟨S16384x32, val_main_v54 (F := Ideal) x3 x4 x7⟩,
        ⟨S16384x32, val_main_v59 (F := Ideal) x2 x8 x9⟩] : List ((s : Shape) × (s.Idx → EReal)))
        concatenates_S16384x832_S16384x32_S16384x32_S16384x896_d1 (ix2 b k) 2
        (by show 2 < 3; omega) S16384x32 (val_main_v59 (F := Ideal) x2 x8 x9) rfl rfl 864 rfl
        (ix2 b (⟨k.val - 864, by omega⟩ : Fin 32))
        (fun bx hne => by
          match bx with
          | ⟨0, _⟩ => rfl
          | ⟨1, _⟩ => exact absurd rfl hne)
        (by show 864 + (k.val - 864) = k.val; omega)).trans ?_
      exact video_apply x2 x8 x9 b _

end Cert.ReferenceIdeal.Rows

end
-- ==== Proof.RefNet.lean ====
/-
  The reference's result is the whole computation of its arguments.

  Each hidden layer is one matrix product read as a sum over the contracted coordinate, plus the bias row broadcast over
  the batch, then the maximum with the constant zero; the result adds the first-order sum, the second-order term, the
  sum of the second layer's outputs (a host sum from the constant zero), and the scalar bias broadcast over the batch.
  Read at batch row `b`, that is the row function of row `b`; so the result array is the whole computation applied to the
  field weights, the two gathered arrays, the weighted title rows, the video features and the parameters.
-/
import proofs.«155336_j45208825757783_2_alg».proof.Proof.RefDeep

noncomputable section

open scoped BigOperators

namespace Cert.ReferenceIdeal.Rows

open Cert.ReferenceIdeal Cert.ReferenceIdeal.Gen Cert.ReferenceIdeal.Read Idealize.ShloMosaic Idealize.ShloMosaic.ValueIdx Cert

variable (x0 : (⟨S16384x26x1, .i32⟩ : BufTy).Contents (Elt Ideal)) (x1 : (⟨S16384x26, .f32⟩ : BufTy).Contents (Elt Ideal)) (x2 : (⟨S16384x128, .f32⟩ : BufTy).Contents (Elt Ideal)) (x3 : (⟨S16384x20, .i32⟩ : BufTy).Contents (Elt Ideal)) (x4 : (⟨S16384x20, .f32⟩ : BufTy).Contents (Elt Ideal)) (x5 : (⟨S26x100000, .f32⟩ : BufTy).Contents (Elt Ideal)) (x6 : (⟨S26x100000x32, .f32⟩ : BufTy).Contents (Elt Ideal)) (x7 : (⟨S50000x32, .f32⟩ : BufTy).Contents (Elt Ideal)) (x8 : (⟨S32x128, .f32⟩ : BufTy).Contents (Elt Ideal)) (x9 : (⟨S32, .f32⟩ : BufTy).Contents (Elt Ideal)) (x10 : (⟨S896x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal)) (x14 : (⟨S1, .f32⟩ : BufTy).Contents (Elt Ideal))

/-- Two indices of a rank-2 shape with the same coordinates are equal. -/
local macro "idx2" : tactic =>
  `(tactic| exact funext fun a => Fin.ext (by match a with | ⟨0, _⟩ => rfl | ⟨1, _⟩ => rfl))
/-- Two indices of a rank-3 shape with the same coordinates are equal. -/
local macro "idx3" : tactic =>
  `(tactic| exact funext fun a => Fin.ext (by match a with | ⟨0, _⟩ => rfl | ⟨1, _⟩ => rfl | ⟨2, _⟩ => rfl))
/-- Two indices of a rank-1 shape with the same coordinate are equal. -/
local macro "idx1" : tactic =>
  `(tactic| exact funext fun a => Fin.ext (by match a with | ⟨0, _⟩ => rfl))

/-- The first hidden layer at `(b, j)`. -/
theorem layer1_apply (b : Fin 16384) (j : Fin 512) :
    val_main_v66 (F := Ideal) x0 x1 x2 x3 x4 x6 x7 x8 x9 x10 x11 (ix2 b j) = (Row.layer1 Net.zero (Row.deep (Row.emb (fun f => x1 (ix2 b f)) (fun f e => val_main_v33 (F := Ideal) x0 x6 (ix3 b f e))) (Row.titleEmb (fun l e => val_main_v53 (F := Ideal) x3 x4 x7 (ix3 b l e))) (Row.videoEmb (fun k => x2 (ix2 b k)) (fun e k => x8 (ix2 e k)) (fun e => x9 (ix1 e)))) (fun k j => x10 (ix2 k j)) (fun k => x11 (ix1 k))) j := by
  rw [val_main_v66_apply, val_main_v65_apply, val_main_v62_apply, val_main_v64_apply, val_main_v63_apply,
    val_main_call0_v0_apply]
  unfold Row.layer1
  rw [show idx_main_v63 (idx_main_v64 (ix2 b j)) = ix1 j from by idx1]
  show max ((∑ k : Fin 896, val_main_v61 (F := Ideal) x0 x1 x2 x3 x4 x6 x7 x8 x9 (lidx_main_v62 (ix2 b j) k)
      * x10 (ridx_main_v62 (ix2 b j) k)) + x11 (ix1 j)) Net.zero = _
  refine congrArg (fun s => max (s + x11 (ix1 j)) Net.zero) (Finset.sum_congr rfl fun k _ => ?_)
  rw [show lidx_main_v62 (ix2 b j) k = ix2 b k from by idx2, show ridx_main_v62 (ix2 b j) k = ix2 k j from by idx2,
    deep_apply]

/-- The second hidden layer at `(b, j)`. -/
theorem layer2_apply (b : Fin 16384) (j : Fin 256) :
    val_main_v71 (F := Ideal) x0 x1 x2 x3 x4 x6 x7 x8 x9 x10 x11 x12 x13 (ix2 b j)
      = Row.layer2 Net.zero (Row.layer1 Net.zero (Row.deep (Row.emb (fun f => x1 (ix2 b f)) (fun f e => val_main_v33 (F := Ideal) x0 x6 (ix3 b f e))) (Row.titleEmb (fun l e => val_main_v53 (F := Ideal) x3 x4 x7 (ix3 b l e))) (Row.videoEmb (fun k => x2 (ix2 b k)) (fun e k => x8 (ix2 e k)) (fun e => x9 (ix1 e)))) (fun k j => x10 (ix2 k j)) (fun k => x11 (ix1 k))) (fun k j => x12 (ix2 k j)) (fun j => x13 (ix1 j)) j := by
  rw [val_main_v71_apply, val_main_v70_apply, val_main_v67_apply, val_main_v69_apply, val_main_v68_apply,
    val_main_call1_v0_apply]
  unfold Row.layer2
  rw [show idx_main_v68 (idx_main_v69 (ix2 b j)) = ix1 j from by idx1]
  show max ((∑ k : Fin 512, val_main_v66 (F := Ideal) x0 x1 x2 x3 x4 x6 x7 x8 x9 x10 x11 (lidx_main_v67 (ix2 b j) k)
      * x12 (ridx_main_v67 (ix2 b j) k)) + x13 (ix1 j)) Net.zero = _
  refine congrArg (fun s => max (s + x13 (ix1 j)) Net.zero) (Finset.sum_congr rfl fun k _ => ?_)
  rw [show lidx_main_v67 (ix2 b j) k = ix2 b k from by idx2, show ridx_main_v67 (ix2 b j) k = ix2 k j from by idx2,
    layer1_apply]

/-- A one-entry array has one index. -/
theorem idx_S1_eq (u v : S1.Idx) : u = v :=
  funext fun a => Fin.ext (by
    match a with
    | ⟨0, _⟩ =>
      have hu : (u 0).val < 1 := (u 0).isLt
      have hv : (v 0).val < 1 := (v 0).isLt
      show (u 0).val = (v 0).val
      omega)

/-- The result at batch row `b`. -/
theorem total_apply (b : Fin 16384) :
    val_main_v79 (F := Ideal) x0 x1 x2 x3 x4 x5 x6 x7 x8 x9 x10 x11 x12 x13 x14 (ix1 b) = Net.netRow x1 (val_main_v17 (F := Ideal) x0 x5) (val_main_v33 (F := Ideal) x0 x6) (val_main_v53 (F := Ideal) x3 x4 x7) x2 x8 x9 x10 x11 x12 x13 x14 b := by
  rw [val_main_v79_apply, val_main_v76_apply, val_main_v74_apply, val_main_v75_apply, val_main_v78_apply, first_apply,
    second_apply]
  unfold Net.netRow Row.rowOut
  rw [show (val_main_cst_14 (F := Ideal)) (Shape.Idx.first h_S_) = 0 from Ideal.ofBits_zero_f32, zero_add]
  show ((Row.fmFirst (fun f => x1 (ix2 b f)) (fun f => val_main_v17 (F := Ideal) x0 x5 (ix2 b f))
        + Row.fmSecond Net.half (Row.emb (fun f => x1 (ix2 b f)) (fun f e => val_main_v33 (F := Ideal) x0 x6 (ix3 b f e))))
      + ∑ k : Fin 256, val_main_v71 (F := Ideal) x0 x1 x2 x3 x4 x6 x7 x8 x9 x10 x11 x12 x13 (idx_main_v75 (ix1 b) k))
      + val_main_v77 (F := Ideal) x14 (idx_main_v78 (ix1 b)) = _
  refine congrArg₂ (· + ·) (congrArg₂ (· + ·) rfl (Finset.sum_congr rfl fun k _ => ?_)) ?_
  · rw [show idx_main_v75 (ix1 b) k = ix2 b k from by idx2, layer2_apply]
  · unfold val_main_v77 shapeCast
    exact congrArg x14 (idx_S1_eq _ _)

/-- The reference's result array is the whole computation of its arguments. -/
theorem result_eq : val_main_v79 (F := Ideal) x0 x1 x2 x3 x4 x5 x6 x7 x8 x9 x10 x11 x12 x13 x14 = Net.net x1 (val_main_v17 (F := Ideal) x0 x5) (val_main_v33 (F := Ideal) x0 x6) (val_main_v53 (F := Ideal) x3 x4 x7) x2 x8 x9 x10 x11 x12 x13 x14 := by
  funext i
  obtain ⟨b, rfl⟩ : ∃ b : Fin 16384, i = ix1 b := ⟨i 0, eq_ix1 i⟩
  rw [Net.net_ix1]
  exact total_apply x0 x1 x2 x3 x4 x5 x6 x7 x8 x9 x10 x11 x12 x13 x14 b

end Cert.ReferenceIdeal.Rows

end
-- ==== Proof.lean ====
/-
  A factorization-machine network with a two-layer perceptron, fused into one kernel, against its array-level
  reference: the two programs compute the same function of their fifteen arguments on the extended reals.

  Both programs gather, from the same tables with the same index normalisation, the first-order entries, the
  second-order embedding rows and the title rows (the latter multiplied by the title weights). The kernel then works on
  blocks of 512 batch rows; for one row it forms

      Σ_f fg·xv  +  Σ_e ½·((Σ_f E)² − Σ_f E²)  +  Σ_j relu(relu(d·W₁ + b₁)·W₂ + b₂)_j  +  bias,

  with `E = sg·xv` the scaled embeddings and `d` the 896-long input made of the flattened `E`, the title embedding and
  the video projection. The reference forms the same expression over whole arrays. The one difference of arrangement
  is the first layer: the kernel adds three products, of the three pieces of `d` with rows 0–831, 832–863 and 864–895 of
  `W₁`, where the reference multiplies the concatenated `d` by all of `W₁`; a sum over 896 indices is the sum of its
  three consecutive stretches by associativity and commutativity of `+` alone, so the equality needs no finiteness and
  the precondition is never opened. Changes of float format are the identity on the extended reals, a matrix product
  into a zero accumulator and the host's product are the same sum over the contracted coordinate, and a lane sum and a
  host sum from zero are the same sum.

  The kernel's side: what the body stores at a row of a block is the row expression of that row of the input blocks
  (Proof/KernelParts, KernelRow, KernelNet); the 32 blocks cover the 16384 results, so the result array is the whole
  computation of the arrays the region finds (Proof/KernelArray), which are the host operations' values of the
  arguments (Proof/HostPrefix, KernelRun). The reference's side: its result read at a batch row is the same row
  expression (Proof/RefParts, RefDeep, RefNet). The ideal pass rewrote nothing, so the kernel's idealization is its own
  text and that conjunct is trivial; the three frames are the generated ones.
-/
import proofs.«155336_j45208825757783_2_alg».proof.Defs
import proofs.«155336_j45208825757783_2_alg».proof.Proof.Gen.Kernel
import proofs.«155336_j45208825757783_2_alg».proof.Proof.Gen.Kernel.Skeleton
import proofs.«155336_j45208825757783_2_alg».proof.Proof.Gen.Kernel.Launch
import proofs.«155336_j45208825757783_2_alg».proof.Proof.Gen.Kernel.Points
import proofs.«155336_j45208825757783_2_alg».proof.Proof.Gen.Kernel.Frame
import proofs.«155336_j45208825757783_2_alg».proof.Proof.Gen.KernelIdeal
import proofs.«155336_j45208825757783_2_alg».proof.Proof.Gen.KernelIdeal.Skeleton
import proofs.«155336_j45208825757783_2_alg».proof.Proof.Gen.KernelIdeal.Launch
import proofs.«155336_j45208825757783_2_alg».proof.Proof.Gen.KernelIdeal.Points
import proofs.«155336_j45208825757783_2_alg».proof.Proof.Gen.KernelIdeal.Frame
import proofs.«155336_j45208825757783_2_alg».proof.Proof.Gen.ReferenceIdeal
import proofs.«155336_j45208825757783_2_alg».proof.Proof.Gen.Pre_finite_inputs
import proofs.«155336_j45208825757783_2_alg».proof.Proof.Gen.KernelIdeal.Value
import proofs.«155336_j45208825757783_2_alg».proof.Proof.Gen.ReferenceIdeal.Run
import proofs.«155336_j45208825757783_2_alg».proof.Proof.Gen.ReferenceIdeal.Read
import proofs.«155336_j45208825757783_2_alg».proof.Proof.KernelRun
import proofs.«155336_j45208825757783_2_alg».proof.Proof.RefNet
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the whole computation of those arguments in their
    result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.Rows.result_eq]
  obtain ⟨a0, a1, a2, a3, a4, a5, a6, a7, a8, a9, a10, a11, a12, a13, a14⟩ := hagree c
  rw [a0, a1, a2, a3, a4, a5, a6, a7, a8, a9, a10, a11, a12, a13, a14]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
